-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 53
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S1x64, .f32⟩
  | .hbm, ⟨52, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x1, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S100000, .f32⟩
  | .hbm, ⟨114, _⟩ => ⟨S100000x1, .f32⟩
  | .hbm, ⟨115, _⟩ => ⟨S100000x64, .f32⟩
  | .hbm, ⟨116, _⟩ => ⟨S100000x64, .f32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The kernel's run with its result named. From any launch memory with zero counters, every weakly fair execution of
  the program terminates, nothing faulting; the final state holds, at every buffer that outlives the blocked steps,
  the contents of the last boundary of the chain (host operations, four blocked steps and the host operations between
  them). Read at the six argument buffers this gives the arguments as launched; read at the result buffer it gives the
  result array at the last boundary's contents, which the walk along the chain then identifies.
-/
import proofs.«182146_j24318104830702_2_alg».proof.Proof.Gen.KernelIdeal.Launch
import proofs.«182146_j24318104830702_2_alg».proof.Proof.Gen.KernelIdeal.Skeleton
import proofs.«182146_j24318104830702_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«182146_j24318104830702_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame launch with the result buffer kept: every weakly fair execution of @main terminates, nothing
    faulting, with the result array at the last boundary's contents and the argument arrays as launched. -/
theorem run_named : θ_run defs (onTc (τ := τ) (main (F := F))) ⟨m, fun _ => 0, ρ⟩ (fun r => ∀ c : Dev nD,
      r.2.mem ((c.tc : Thread nD τ).loc main_v37) = W7 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v37 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Named

end
-- ==== Proof.Scaled128.lean ====
/-
  First layer, the scaled feature transform. With X the node features (100000 × 128), W the layer's weight
  (128 × 128) and d the column of inverse square-root degrees (100000 × 1), the array this step leaves is

      scaled X W d (v, c) = (∑ k, X (v, k) · W (k, c)) · d (v, 0)

  on the extended reals. It is produced twenty rows-blocks at a time: block t holds rows 5000·t … 5000·t + 4999,
  all 128 columns, and is computed from rows 5000·t … of X and of d and from the whole of W. Rounding the factors
  to a narrower format before the product is the identity on the extended reals, and the product accumulated into
  a zero block is the plain sum over k. Since each block is the restriction of the one function `scaled X W d`,
  and the twenty blocks tile the array, the array ends equal to that function.
-/
import proofs.«182146_j24318104830702_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Scaled128

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- Row v of the features against column c of the weight, times the node's degree factor. -/
def scaled (X : S100000x128.Idx → EReal) (W : S128x128.Idx → EReal) (d : S100000x1.Idx → EReal) :
    S100000x128.Idx → EReal :=
  fun i => (∑ k : Fin 128, X (ix2 (⟨(i 0).val, (i 0).isLt⟩ : Fin 100000) k) * W (ix2 k (⟨(i 1).val, (i 1).isLt⟩ : Fin 128)))
    * d (ix2 (⟨(i 0).val, (i 0).isLt⟩ : Fin 100000) (0 : Fin 1))

/-! ## One block: the product's index on each factor -/

local notation "dotBlk" => dot_S5000x128_S128x128_S5000x128_1_0_0_1_n_n

theorem lhs_row (i : S5000x128.Idx) (q : (dotBlk).contr.Idx) : ((dotBlk).lhsIdx i q 0).val = (i 0).val := by
  unfold DotDims.lhsIdx
  rw [dif_neg (show ¬(0 : Fin S5000x128.rank) ∈ (dotBlk).lhsBatch by decide),
    dif_pos (show (0 : Fin S5000x128.rank) ∈ (dotBlk).lhsNonContracting by decide)]
  rfl
theorem lhs_col (i : S5000x128.Idx) (q : (dotBlk).contr.Idx) : ((dotBlk).lhsIdx i q 1).val = (q ⟨0, by decide⟩).val :=
  (dotBlk).lhsIdx_val_of_single rfl i q
theorem rhs_row (i : S5000x128.Idx) (q : (dotBlk).contr.Idx) : ((dotBlk).rhsIdx i q 0).val = (q ⟨0, by decide⟩).val :=
  (dotBlk).rhsIdx_val_of_single rfl i q
theorem rhs_col (i : S5000x128.Idx) (q : (dotBlk).contr.Idx) : ((dotBlk).rhsIdx i q 1).val = (i 1).val := by
  unfold DotDims.rhsIdx
  rw [dif_neg (show ¬(1 : Fin S128x128.rank) ∈ (dotBlk).rhsBatch by decide),
    dif_pos (show (1 : Fin S128x128.rank) ∈ (dotBlk).rhsNonContracting by decide)]
  rfl

/-- The block product into a zero block, at row p and column q: the sum over k of the block's row p times column q. -/
theorem product_apply (l : FVec Ideal S5000x128 .bf16) (r : FVec Ideal S128x128 .bf16) (p : Fin 5000) (q : Fin 128) :
    matmul dotBlk none l r (constant S5000x128 .f32 0x00000000#32) (ix2 p q)
      = ∑ k : Fin 128, l (ix2 p k) * r (ix2 k q) := by
  refine (Ideal.matmul_constant_zero_apply dotBlk none l r (ix2 p q)).trans ?_
  rw [← Equiv.sum_comp (ValueIdx.contrEquiv1 dotBlk 128 rfl rfl).symm]
  refine Finset.sum_congr rfl fun k _ => ?_
  have hk := ValueIdx.contrEquiv1_symm_val dotBlk 128 rfl rfl k
  have el : (dotBlk).lhsIdx (ix2 p q) ((ValueIdx.contrEquiv1 dotBlk 128 rfl rfl).symm k) = ix2 p k :=
    funext fun a => Fin.ext (by
      match a with
      | ⟨0, _⟩ => exact lhs_row _ _
      | ⟨1, _⟩ => exact (lhs_col _ _).trans hk)
  have er : (dotBlk).rhsIdx (ix2 p q) ((ValueIdx.contrEquiv1 dotBlk 128 rfl rfl).symm k) = ix2 k q :=
    funext fun a => Fin.ext (by
      match a with
      | ⟨0, _⟩ => exact (rhs_row _ _).trans hk
      | ⟨1, _⟩ => exact rhs_col _ _)
  rw [el, er]

/-- The degree column spread over the 128 columns, at row p and column q: the column's entry of row p. -/
theorem spread_apply (x : FVec Ideal S5000x1 .f32) (p : Fin 5000) (q : Fin 128) :
    broadcastTo S5000x128 (shapeCast S5000x1 x shapeCasts_S5000x1_S5000x1) broadcasts_S5000x1_S5000x128 (ix2 p q)
      = x (ix2 p (0 : Fin 1)) := by
  rw [shapeCast_self]
  exact broadcastTo_apply x broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else q.val; rw [if_pos rfl])

/-- What the step computes of one block's loads, at row p and column q of the block. -/
theorem block_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  rw [mulf_apply, product_apply, spread_apply]
  rfl

/-! ## From blocks to the array -/

theorem zero_start : (![0, 0] : Fin 2 → Nat) = fun _ => 0 := funext fun a => by fin_cases a <;> rfl

/-- Where each array's block sits at grid point t: block row t for the three row-blocked arrays, the one block of W. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of block t is row 5000·t + p of the array. -/
theorem row_lt (t : Fin cfg0.N) (p : Fin 5000) : t.val * 5000 + p.val < 100000 := by
  have hN : cfg0.N = 20 := N_0
  have ht := t.isLt
  have hp := p.isLt
  omega

section
variable (V : (c : Dev nD) → (b : Ref sig .tc) → Buf (Elt Ideal) ((c : Thread nD τ).loc b))

/-- The feature block at point t, row p, column k: the features at row 5000·t + p. -/
theorem read_features (c : Dev nD) (t : Fin cfg0.N) (p : Fin 5000) (k : Fin 128) :
    iblk0 V c 0 t (ix2 p k) = V c main_arg0 (ix2 (⟨t.val * 5000 + p.val, row_lt t p⟩ : Fin 100000) k) := by
  show V c main_arg0 (((cfg0.win 0).blk t).view.emb (ix2 p k)) = _
  refine congrArg (V c main_arg0) (funext fun a => Fin.ext ?_)
  obtain ⟨e0, e1, -⟩ := block_index t
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weight's one block is the weight. -/
theorem read_weight (c : Dev nD) (t : Fin cfg0.N) (k : Fin 128) (q : Fin 128) :
    iblk0 V c 1 t (ix2 k q) = V c main_arg2 (ix2 k q) := by
  show V c main_arg2 (((cfg0.win 1).blk t).view.emb (ix2 k q)) = _
  refine congrArg (V c main_arg2) (funext fun a => Fin.ext ?_)
  obtain ⟨-, -, e2, e3, -⟩ := block_index t
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The degree column's block at point t, row p: the column at row 5000·t + p. -/
theorem read_degree (c : Dev nD) (t : Fin cfg0.N) (p : Fin 5000) :
    iblk0 V c 2 t (ix2 p (0 : Fin 1)) = V c main_v11 (ix2 (⟨t.val * 5000 + p.val, row_lt t p⟩ : Fin 100000) (0 : Fin 1)) := by
  show V c main_v11 (((cfg0.win 2).blk t).view.emb (ix2 p (0 : Fin 1))) = _
  refine congrArg (V c main_v11) (funext fun a => Fin.ext ?_)
  obtain ⟨-, -, -, -, e4, e5, -⟩ := block_index t
  match a with
  | ⟨0, _⟩ => show win0_2.index t (0 : Fin 2) * 5000 + 1 * p.val = t.val * 5000 + p.val; rw [e4]; omega
  | ⟨1, _⟩ => show win0_2.index t (1 : Fin 2) * 1 + 1 * 0 = 0; rw [e5]

/-- Entry (p, q) of the result block at point t sits at row 5000·t + p, column q of the result array. -/
theorem result_index (t : Fin cfg0.N) (p : Fin 5000) (q : Fin 128) :
    ((cfg0.win 3).blk t).view.emb (ix2 p q) = ix2 (⟨t.val * 5000 + p.val, row_lt t p⟩ : Fin 100000) q := by
  refine funext fun a => Fin.ext ?_
  obtain ⟨-, -, -, -, -, -, e6, e7⟩ := block_index t
  match a with
  | ⟨0, _⟩ => show win0_3.index t (0 : Fin 2) * 5000 + 1 * p.val = t.val * 5000 + p.val; rw [e6]; omega
  | ⟨1, _⟩ => show win0_3.index t (1 : Fin 2) * 128 + 1 * q.val = q.val; rw [e7]; omega

/-- What point t writes back is block t of `scaled` of the arrays as the step finds them. -/
theorem flushed_eq (c : Dev nD) (t : Fin cfg0.N) :
    (dat0 V c).flushed 3 t
      = ((cfg0.win 3).blk t).view.read (Elt Ideal) (scaled (V c main_arg0) (V c main_arg2) (V c main_v11)) := by
  show (cfg0.win 3).cut (grid0.coords t) ((dat0 V c).after 3 t) = _
  rw [after0_3]
  unfold out0_3
  rw [View.canon_unit_zero zero_start]
  simp only [View.ld_unit_zero (S := S5000x128) zero_start, View.ld_unit_zero (S := S128x128) zero_start,
    View.ld_unit_zero (S := S5000x1) zero_start]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = scaled (V c main_arg0) (V c main_arg2) (V c main_v11) (((cfg0.win 3).blk t).view.emb (ix2 p q))
  rw [result_index t p q]
  refine (block_apply _ _ _ p q).trans ?_
  simp only [read_features V c t p, read_weight V c t, read_degree V c t p]
  rfl

/-- An index of the result array lies in point t's block iff each coordinate lies in the block's range. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v12).slice (win0_3.rect t)).set ↔ _
  rw [View.set_slice_whole, Rect.mem_set_unit]
  exact Iff.rfl

/-- The twenty row blocks tile the array: row r is in block r / 5000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, e6, e7⟩ := block_index t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    rw [e6, ht]; omega
  | ⟨1, _⟩ =>
    show win0_3.index t (1 : Fin 2) * 128 ≤ (i 1).val ∧ (i 1).val < win0_3.index t (1 : Fin 2) * 128 + 128
    rw [e7]; omega

/-- The result array after the step is `scaled` of the arrays the step found. -/
theorem final (c : Dev nD) :
    (dat0 V c).arrAt 3 cfg0.N = scaled (V c main_arg0) (V c main_arg2) (V c main_v11) :=
  (dat0 V c).arrAt_eq_of_cover 3 _ (fun t _ => flushed_eq V c t) (covered)

end

end Cert.KernelIdeal.Scaled128

end
-- ==== Proof.Combined128.lean ====
/-
  First layer, the combining step. With S the sum of the scaled features over each node's incoming edges
  (100000 × 128), H the scaled features themselves, d the column of inverse square-root degrees (100000 × 1) and
  b the bias row (1 × 128), the array this step leaves is

      combined S H d b (v, c) = max (d (v, 0) · (S (v, c) + H (v, c)) + b (0, c)) 0

  on the extended reals: the node's own scaled features join its neighbours' sum, the whole is scaled once more by
  the node's degree factor, the bias is added and negative values are cut off. Every operation is entry by entry,
  so block t of the result (rows 5000·t … 5000·t + 4999) is the same function of rows 5000·t … of S, H and d and of
  the whole bias row; the twenty blocks tile the array, which therefore ends equal to `combined S H d b`.
-/
import proofs.«182146_j24318104830702_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Combined128

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The neighbours' sum plus the node's own term, scaled by the node's degree factor, plus the bias, cut off at zero. -/
def combined (S H : S100000x128.Idx → EReal) (d : S100000x1.Idx → EReal) (b : S1x128.Idx → EReal) :
    S100000x128.Idx → EReal :=
  fun i => max (d (ix2 (⟨(i 0).val, (i 0).isLt⟩ : Fin 100000) (0 : Fin 1)) * (S i + H i)
      + b (ix2 (0 : Fin 1) (⟨(i 1).val, (i 1).isLt⟩ : Fin 128))) (Ideal.ofBits .f32 0x00000000#32)

/-! ## One block -/

/-- The degree column spread over the 128 columns, at row p and column q: the column's entry of row p. -/
theorem spread_apply (x : FVec Ideal S5000x1 .f32) (p : Fin 5000) (q : Fin 128) :
    broadcastTo S5000x128 (shapeCast S5000x1 x shapeCasts_S5000x1_S5000x1) broadcasts_S5000x1_S5000x128 (ix2 p q)
      = x (ix2 p (0 : Fin 1)) := by
  rw [shapeCast_self]
  exact broadcastTo_apply x broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else q.val; rw [if_pos rfl])

/-- The bias row spread over the 5000 rows, at row p and column q: the row's entry of column q. -/
theorem bias_apply (x : FVec Ideal S1x128 .f32) (p : Fin 5000) (q : Fin 128) :
    broadcastTo S5000x128 (shapeCast S1x128 x shapeCasts_S1x128_S1x128) broadcasts_S1x128_S5000x128 (ix2 p q)
      = x (ix2 (0 : Fin 1) q) := by
  rw [shapeCast_self]
  exact broadcastTo_apply x broadcasts_S1x128_S5000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- What the step computes of one block's loads, at row p and column q of the block. -/
theorem block_apply (x0 : Vec Ideal S5000x1 .f32) (x1 x2 : Vec Ideal S5000x128 .f32) (x3 : Vec Ideal S1x128 .f32)
    (p : Fin 5000) (q : Fin 128) :
    k1_pay1 (F := Ideal) x0 x1 x2 x3 (ix2 p q)
      = max (x0 (ix2 p (0 : Fin 1)) * (x1 (ix2 p q) + x2 (ix2 p q)) + x3 (ix2 (0 : Fin 1) q)) (Ideal.ofBits .f32 0x00000000#32) := by
  unfold k1_pay1
  rw [maximumf_apply, addf_apply, mulf_apply, addf_apply, spread_apply, bias_apply, shapeCast_self, shapeCast_self]
  rfl

/-! ## From blocks to the array -/

theorem zero_start : (![0, 0] : Fin 2 → Nat) = fun _ => 0 := funext fun a => by fin_cases a <;> rfl

/-- Where each array's block sits at grid point t: block row t for the four row-blocked arrays, the one block of the bias. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of block t is row 5000·t + p of the array. -/
theorem row_lt (t : Fin cfg1.N) (p : Fin 5000) : t.val * 5000 + p.val < 100000 := by
  have hN : cfg1.N = 20 := N_1
  have ht := t.isLt
  have hp := p.isLt
  omega

section
variable (V : (c : Dev nD) → (b : Ref sig .tc) → Buf (Elt Ideal) ((c : Thread nD τ).loc b))

theorem read_sum (c : Dev nD) (t : Fin cfg1.N) (p : Fin 5000) (q : Fin 128) :
    iblk1 V c 0 t (ix2 p q) = V c main_v22 (ix2 (⟨t.val * 5000 + p.val, row_lt t p⟩ : Fin 100000) q) := by
  show V c main_v22 (((cfg1.win 0).blk t).view.emb (ix2 p q)) = _
  refine congrArg (V c main_v22) (funext fun a => Fin.ext ?_)
  obtain ⟨e0, e1, -⟩ := block_index t
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

theorem read_own (c : Dev nD) (t : Fin cfg1.N) (p : Fin 5000) (q : Fin 128) :
    iblk1 V c 1 t (ix2 p q) = V c main_v12 (ix2 (⟨t.val * 5000 + p.val, row_lt t p⟩ : Fin 100000) q) := by
  show V c main_v12 (((cfg1.win 1).blk t).view.emb (ix2 p q)) = _
  refine congrArg (V c main_v12) (funext fun a => Fin.ext ?_)
  obtain ⟨-, -, e2, e3, -⟩ := block_index t
  match a with
  | ⟨0, _⟩ => show win1_1.index t (0 : Fin 2) * 5000 + 1 * p.val = t.val * 5000 + p.val; rw [e2]; omega
  | ⟨1, _⟩ => show win1_1.index t (1 : Fin 2) * 128 + 1 * q.val = q.val; rw [e3]; omega

theorem read_degree (c : Dev nD) (t : Fin cfg1.N) (p : Fin 5000) :
    iblk1 V c 2 t (ix2 p (0 : Fin 1)) = V c main_v11 (ix2 (⟨t.val * 5000 + p.val, row_lt t p⟩ : Fin 100000) (0 : Fin 1)) := by
  show V c main_v11 (((cfg1.win 2).blk t).view.emb (ix2 p (0 : Fin 1))) = _
  refine congrArg (V c main_v11) (funext fun a => Fin.ext ?_)
  obtain ⟨-, -, -, -, e4, e5, -⟩ := block_index t
  match a with
  | ⟨0, _⟩ => show win1_2.index t (0 : Fin 2) * 5000 + 1 * p.val = t.val * 5000 + p.val; rw [e4]; omega
  | ⟨1, _⟩ => show win1_2.index t (1 : Fin 2) * 1 + 1 * 0 = 0; rw [e5]

theorem read_bias (c : Dev nD) (t : Fin cfg1.N) (q : Fin 128) :
    iblk1 V c 3 t (ix2 (0 : Fin 1) q) = V c main_v23 (ix2 (0 : Fin 1) q) := by
  show V c main_v23 (((cfg1.win 3).blk t).view.emb (ix2 (0 : Fin 1) q)) = _
  refine congrArg (V c main_v23) (funext fun a => Fin.ext ?_)
  obtain ⟨-, -, -, -, -, -, e6, e7, -⟩ := block_index t
  match a with
  | ⟨0, _⟩ => show win1_3.index t (0 : Fin 2) * 1 + 1 * 0 = 0; rw [e6]
  | ⟨1, _⟩ => show win1_3.index t (1 : Fin 2) * 128 + 1 * q.val = q.val; rw [e7]; omega

theorem result_index (t : Fin cfg1.N) (p : Fin 5000) (q : Fin 128) :
    ((cfg1.win 4).blk t).view.emb (ix2 p q) = ix2 (⟨t.val * 5000 + p.val, row_lt t p⟩ : Fin 100000) q := by
  refine funext fun a => Fin.ext ?_
  obtain ⟨-, -, -, -, -, -, -, -, e8, e9⟩ := block_index t
  match a with
  | ⟨0, _⟩ => show win1_4.index t (0 : Fin 2) * 5000 + 1 * p.val = t.val * 5000 + p.val; rw [e8]; omega
  | ⟨1, _⟩ => show win1_4.index t (1 : Fin 2) * 128 + 1 * q.val = q.val; rw [e9]; omega

/-- What point t writes back is block t of `combined` of the arrays as the step finds them. -/
theorem flushed_eq (c : Dev nD) (t : Fin cfg1.N) :
    (dat1 V c).flushed 4 t
      = ((cfg1.win 4).blk t).view.read (Elt Ideal) (combined (V c main_v22) (V c main_v12) (V c main_v11) (V c main_v23)) := by
  show (cfg1.win 4).cut (grid1.coords t) ((dat1 V c).after 4 t) = _
  rw [after1_4]
  unfold out1_4
  rw [View.canon_unit_zero zero_start]
  simp only [View.ld_unit_zero (S := S5000x128) zero_start, View.ld_unit_zero (S := S1x128) zero_start,
    View.ld_unit_zero (S := S5000x1) zero_start]
  funext j
  obtain ⟨p, q, rfl⟩ : ∃ (p : Fin 5000) (q : Fin 128), j = ix2 p q := ⟨j 0, j 1, eq_ix2 j⟩
  show k1_pay1 (iblk1 V c 2 t) (iblk1 V c 0 t) (iblk1 V c 1 t) (iblk1 V c 3 t) (ix2 p q)
    = combined (V c main_v22) (V c main_v12) (V c main_v11) (V c main_v23) (((cfg1.win 4).blk t).view.emb (ix2 p q))
  rw [result_index t p q]
  refine (block_apply _ _ _ _ p q).trans ?_
  rw [read_sum V c t p q, read_own V c t p q, read_degree V c t p, read_bias V c t q]
  rfl

theorem mem_block (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v24).slice (win1_4.rect t)).set ↔ _
  rw [View.set_slice_whole, Rect.mem_set_unit]
  exact Iff.rfl

/-- The twenty row blocks tile the array: row r is in block r / 5000. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, -, -, e8, e9⟩ := block_index t
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    rw [e8, ht]; omega
  | ⟨1, _⟩ =>
    show win1_4.index t (1 : Fin 2) * 128 ≤ (i 1).val ∧ (i 1).val < win1_4.index t (1 : Fin 2) * 128 + 128
    rw [e9]; omega

/-- The result array after the step is `combined` of the arrays the step found. -/
theorem final (c : Dev nD) :
    (dat1 V c).arrAt 4 cfg1.N = combined (V c main_v22) (V c main_v12) (V c main_v11) (V c main_v23) :=
  (dat1 V c).arrAt_eq_of_cover 4 _ (fun t _ => flushed_eq V c t) (covered)

end

end Cert.KernelIdeal.Combined128

end
-- ==== Proof.Scaled64.lean ====
/-
  Second layer, the scaled feature transform. With X the first layer's output (100000 × 128), W the layer's weight
  (128 × 64) and d the column of inverse square-root degrees (100000 × 1), the array this step leaves is

      scaled X W d (v, c) = (∑ k, X (v, k) · W (k, c)) · d (v, 0)

  on the extended reals. It is produced twenty rows-blocks at a time: block t holds rows 5000·t … 5000·t + 4999,
  all 64 columns, and is computed from rows 5000·t … of X and of d and from the whole of W. Rounding the factors
  to a narrower format before the product is the identity on the extended reals, and the product accumulated into
  a zero block is the plain sum over k. Since each block is the restriction of the one function `scaled X W d`,
  and the twenty blocks tile the array, the array ends equal to that function.
-/
import proofs.«182146_j24318104830702_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Scaled64

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- Row v of the features against column c of the weight, times the node's degree factor. -/
def scaled (X : S100000x128.Idx → EReal) (W : S128x64.Idx → EReal) (d : S100000x1.Idx → EReal) :
    S100000x64.Idx → EReal :=
  fun i => (∑ k : Fin 128, X (ix2 (⟨(i 0).val, (i 0).isLt⟩ : Fin 100000) k) * W (ix2 k (⟨(i 1).val, (i 1).isLt⟩ : Fin 64)))
    * d (ix2 (⟨(i 0).val, (i 0).isLt⟩ : Fin 100000) (0 : Fin 1))

/-! ## One block: the product's index on each factor -/

local notation "dotBlk" => dot_S5000x128_S128x64_S5000x64_1_0_0_1_n_n

theorem lhs_row (i : S5000x64.Idx) (q : (dotBlk).contr.Idx) : ((dotBlk).lhsIdx i q 0).val = (i 0).val := by
  unfold DotDims.lhsIdx
  rw [dif_neg (show ¬(0 : Fin S5000x128.rank) ∈ (dotBlk).lhsBatch by decide),
    dif_pos (show (0 : Fin S5000x128.rank) ∈ (dotBlk).lhsNonContracting by decide)]
  rfl
theorem lhs_col (i : S5000x64.Idx) (q : (dotBlk).contr.Idx) : ((dotBlk).lhsIdx i q 1).val = (q ⟨0, by decide⟩).val :=
  (dotBlk).lhsIdx_val_of_single rfl i q
theorem rhs_row (i : S5000x64.Idx) (q : (dotBlk).contr.Idx) : ((dotBlk).rhsIdx i q 0).val = (q ⟨0, by decide⟩).val :=
  (dotBlk).rhsIdx_val_of_single rfl i q
theorem rhs_col (i : S5000x64.Idx) (q : (dotBlk).contr.Idx) : ((dotBlk).rhsIdx i q 1).val = (i 1).val := by
  unfold DotDims.rhsIdx
  rw [dif_neg (show ¬(1 : Fin S128x64.rank) ∈ (dotBlk).rhsBatch by decide),
    dif_pos (show (1 : Fin S128x64.rank) ∈ (dotBlk).rhsNonContracting by decide)]
  rfl

/-- The block product into a zero block, at row p and column q: the sum over k of the block's row p times column q. -/
theorem product_apply (l : FVec Ideal S5000x128 .bf16) (r : FVec Ideal S128x64 .bf16) (p : Fin 5000) (q : Fin 64) :
    matmul dotBlk none l r (constant S5000x64 .f32 0x00000000#32) (ix2 p q)
      = ∑ k : Fin 128, l (ix2 p k) * r (ix2 k q) := by
  refine (Ideal.matmul_constant_zero_apply dotBlk none l r (ix2 p q)).trans ?_
  rw [← Equiv.sum_comp (ValueIdx.contrEquiv1 dotBlk 128 rfl rfl).symm]
  refine Finset.sum_congr rfl fun k _ => ?_
  have hk := ValueIdx.contrEquiv1_symm_val dotBlk 128 rfl rfl k
  have el : (dotBlk).lhsIdx (ix2 p q) ((ValueIdx.contrEquiv1 dotBlk 128 rfl rfl).symm k) = ix2 p k :=
    funext fun a => Fin.ext (by
      match a with
      | ⟨0, _⟩ => exact lhs_row _ _
      | ⟨1, _⟩ => exact (lhs_col _ _).trans hk)
  have er : (dotBlk).rhsIdx (ix2 p q) ((ValueIdx.contrEquiv1 dotBlk 128 rfl rfl).symm k) = ix2 k q :=
    funext fun a => Fin.ext (by
      match a with
      | ⟨0, _⟩ => exact (rhs_row _ _).trans hk
      | ⟨1, _⟩ => exact rhs_col _ _)
  rw [el, er]

/-- The degree column spread over the 64 columns, at row p and column q: the column's entry of row p. -/
theorem spread_apply (x : FVec Ideal S5000x1 .f32) (p : Fin 5000) (q : Fin 64) :
    broadcastTo S5000x64 (shapeCast S5000x1 x shapeCasts_S5000x1_S5000x1) broadcasts_S5000x1_S5000x64 (ix2 p q)
      = x (ix2 p (0 : Fin 1)) := by
  rw [shapeCast_self]
  exact broadcastTo_apply x broadcasts_S5000x1_S5000x64 (ix2 p q) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else q.val; rw [if_pos rfl])

/-- What the step computes of one block's loads, at row p and column q of the block. -/
theorem block_apply (x0 : Vec Ideal S5000x128 .f32) (x1 : Vec Ideal S128x64 .f32) (x2 : Vec Ideal S5000x1 .f32)
    (p : Fin 5000) (q : Fin 64) :
    k2_pay1 (F := Ideal) x0 x1 x2 (ix2 p q) = (∑ k : Fin 128, x0 (ix2 p k) * x1 (ix2 k q)) * x2 (ix2 p (0 : Fin 1)) := by
  unfold k2_pay1
  rw [mulf_apply, product_apply, spread_apply, shapeCast_self]
  rfl

/-! ## From blocks to the array -/

theorem zero_start : (![0, 0] : Fin 2 → Nat) = fun _ => 0 := funext fun a => by fin_cases a <;> rfl

/-- Where each array's block sits at grid point t: block row t for the three row-blocked arrays, the one block of W. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row p of block t is row 5000·t + p of the array. -/
theorem row_lt (t : Fin cfg2.N) (p : Fin 5000) : t.val * 5000 + p.val < 100000 := by
  have hN : cfg2.N = 20 := N_2
  have ht := t.isLt
  have hp := p.isLt
  omega

section
variable (V : (c : Dev nD) → (b : Ref sig .tc) → Buf (Elt Ideal) ((c : Thread nD τ).loc b))

/-- The feature block at point t, row p, column k: the features at row 5000·t + p. -/
theorem read_features (c : Dev nD) (t : Fin cfg2.N) (p : Fin 5000) (k : Fin 128) :
    iblk2 V c 0 t (ix2 p k) = V c main_v24 (ix2 (⟨t.val * 5000 + p.val, row_lt t p⟩ : Fin 100000) k) := by
  show V c main_v24 (((cfg2.win 0).blk t).view.emb (ix2 p k)) = _
  refine congrArg (V c main_v24) (funext fun a => Fin.ext ?_)
  obtain ⟨e0, e1, -⟩ := block_index t
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- The weight's one block is the weight. -/
theorem read_weight (c : Dev nD) (t : Fin cfg2.N) (k : Fin 128) (q : Fin 64) :
    iblk2 V c 1 t (ix2 k q) = V c main_arg4 (ix2 k q) := by
  show V c main_arg4 (((cfg2.win 1).blk t).view.emb (ix2 k q)) = _
  refine congrArg (V c main_arg4) (funext fun a => Fin.ext ?_)
  obtain ⟨-, -, e2, e3, -⟩ := block_index t
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- The degree column's block at point t, row p: the column at row 5000·t + p. -/
theorem read_degree (c : Dev nD) (t : Fin cfg2.N) (p : Fin 5000) :
    iblk2 V c 2 t (ix2 p (0 : Fin 1)) = V c main_v11 (ix2 (⟨t.val * 5000 + p.val, row_lt t p⟩ : Fin 100000) (0 : Fin 1)) := by
  show V c main_v11 (((cfg2.win 2).blk t).view.emb (ix2 p (0 : Fin 1))) = _
  refine congrArg (V c main_v11) (funext fun a => Fin.ext ?_)
  obtain ⟨-, -, -, -, e4, e5, -⟩ := block_index t
  match a with
  | ⟨0, _⟩ => show win2_2.index t (0 : Fin 2) * 5000 + 1 * p.val = t.val * 5000 + p.val; rw [e4]; omega
  | ⟨1, _⟩ => show win2_2.index t (1 : Fin 2) * 1 + 1 * 0 = 0; rw [e5]

/-- Entry (p, q) of the result block at point t sits at row 5000·t + p, column q of the result array. -/
theorem result_index (t : Fin cfg2.N) (p : Fin 5000) (q : Fin 64) :
    ((cfg2.win 3).blk t).view.emb (ix2 p q) = ix2 (⟨t.val * 5000 + p.val, row_lt t p⟩ : Fin 100000) q := by
  refine funext fun a => Fin.ext ?_
  obtain ⟨-, -, -, -, -, -, e6, e7⟩ := block_index t
  match a with
  | ⟨0, _⟩ => show win2_3.index t (0 : Fin 2) * 5000 + 1 * p.val = t.val * 5000 + p.val; rw [e6]; omega
  | ⟨1, _⟩ => show win2_3.index t (1 : Fin 2) * 64 + 1 * q.val = q.val; rw [e7]; omega

/-- What point t writes back is block t of `scaled` of the arrays as the step finds them. -/
theorem flushed_eq (c : Dev nD) (t : Fin cfg2.N) :
    (dat2 V c).flushed 3 t
      = ((cfg2.win 3).blk t).view.read (Elt Ideal) (scaled (V c main_v24) (V c main_arg4) (V c main_v11)) := by
  show (cfg2.win 3).cut (grid2.coords t) ((dat2 V c).after 3 t) = _
  rw [after2_3]
  unfold out2_3
  rw [View.canon_unit_zero zero_start]
  simp only [View.ld_unit_zero (S := S5000x128) zero_start, View.ld_unit_zero (S := S128x64) zero_start,
    View.ld_unit_zero (S := S5000x1) zero_start]
  funext j
  obtain ⟨p, q, rfl⟩ : ∃ (p : Fin 5000) (q : Fin 64), j = ix2 p q := ⟨j 0, j 1, eq_ix2 j⟩
  show k2_pay1 (iblk2 V c 0 t) (iblk2 V c 1 t) (iblk2 V c 2 t) (ix2 p q)
    = scaled (V c main_v24) (V c main_arg4) (V c main_v11) (((cfg2.win 3).blk t).view.emb (ix2 p q))
  rw [result_index t p q]
  refine (block_apply _ _ _ p q).trans ?_
  simp only [read_features V c t p, read_weight V c t, read_degree V c t p]
  rfl

/-- An index of the result array lies in point t's block iff each coordinate lies in the block's range. -/
theorem mem_block (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v25).slice (win2_3.rect t)).set ↔ _
  rw [View.set_slice_whole, Rect.mem_set_unit]
  exact Iff.rfl

/-- The twenty row blocks tile the array: row r is in block r / 5000. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by omega⟩, rfl⟩
  obtain ⟨-, -, -, -, -, -, e6, e7⟩ := block_index t
  refine ⟨t, flush2_3 t, ?_⟩
  rw [mem_block]
  intro a
  match a with
  | ⟨0, _⟩ =>
    show win2_3.index t (0 : Fin 2) * 5000 ≤ (i 0).val ∧ (i 0).val < win2_3.index t (0 : Fin 2) * 5000 + 5000
    rw [e6, ht]; omega
  | ⟨1, _⟩ =>
    show win2_3.index t (1 : Fin 2) * 64 ≤ (i 1).val ∧ (i 1).val < win2_3.index t (1 : Fin 2) * 64 + 64
    rw [e7]; omega

/-- The result array after the step is `scaled` of the arrays the step found. -/
theorem final (c : Dev nD) :
    (dat2 V c).arrAt 3 cfg2.N = scaled (V c main_v24) (V c main_arg4) (V c main_v11) :=
  (dat2 V c).arrAt_eq_of_cover 3 _ (fun t _ => flushed_eq V c t) (covered)

end

end Cert.KernelIdeal.Scaled64

end
-- ==== Proof.Combined64.lean ====
/-
  Second layer, the combining step. With S the sum of the scaled features over each node's incoming edges
  (100000 × 64), H the scaled features themselves, d the column of inverse square-root degrees (100000 × 1) and
  b the bias row (1 × 64), the array this step leaves is

      combined S H d b (v, c) = d (v, 0) · (S (v, c) + H (v, c)) + b (0, c)

  on the extended reals: the node's own scaled features join its neighbours' sum, the whole is scaled once more by
  the node's degree factor and the bias is added (the last layer has no cut-off). Every operation is entry by entry,
  so block t of the result (rows 5000·t … 5000·t + 4999) is the same function of rows 5000·t … of S, H and d and of
  the whole bias row; the twenty blocks tile the array, which therefore ends equal to `combined S H d b`.
-/
import proofs.«182146_j24318104830702_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Combined64

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The neighbours' sum plus the node's own term, scaled by the node's degree factor, plus the bias. -/
def combined (S H : S100000x64.Idx → EReal) (d : S100000x1.Idx → EReal) (b : S1x64.Idx → EReal) :
    S100000x64.Idx → EReal :=
  fun i => d (ix2 (⟨(i 0).val, (i 0).isLt⟩ : Fin 100000) (0 : Fin 1)) * (S i + H i)
      + b (ix2 (0 : Fin 1) (⟨(i 1).val, (i 1).isLt⟩ : Fin 64))

/-! ## One block -/

/-- The degree column spread over the 64 columns, at row p and column q: the column's entry of row p. -/
theorem spread_apply (x : FVec Ideal S5000x1 .f32) (p : Fin 5000) (q : Fin 64) :
    broadcastTo S5000x64 (shapeCast S5000x1 x shapeCasts_S5000x1_S5000x1) broadcasts_S5000x1_S5000x64 (ix2 p q)
      = x (ix2 p (0 : Fin 1)) := by
  rw [shapeCast_self]
  exact broadcastTo_apply x broadcasts_S5000x1_S5000x64 (ix2 p q) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else q.val; rw [if_pos rfl])

/-- The bias row spread over the 5000 rows, at row p and column q: the row's entry of column q. -/
theorem bias_apply (x : FVec Ideal S1x64 .f32) (p : Fin 5000) (q : Fin 64) :
    broadcastTo S5000x64 (shapeCast S1x64 x shapeCasts_S1x64_S1x64) broadcasts_S1x64_S5000x64 (ix2 p q)
      = x (ix2 (0 : Fin 1) q) := by
  rw [shapeCast_self]
  exact broadcastTo_apply x broadcasts_S1x64_S5000x64 (ix2 p q) (ix2 (0 : Fin 1) q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- What the step computes of one block's loads, at row p and column q of the block. -/
theorem block_apply (x0 : Vec Ideal S5000x1 .f32) (x1 x2 : Vec Ideal S5000x64 .f32) (x3 : Vec Ideal S1x64 .f32)
    (p : Fin 5000) (q : Fin 64) :
    k3_pay1 (F := Ideal) x0 x1 x2 x3 (ix2 p q)
      = x0 (ix2 p (0 : Fin 1)) * (x1 (ix2 p q) + x2 (ix2 p q)) + x3 (ix2 (0 : Fin 1) q) := by
  unfold k3_pay1
  rw [addf_apply, mulf_apply, addf_apply, spread_apply, bias_apply, shapeCast_self, shapeCast_self]

/-! ## From blocks to the array -/

theorem zero_start : (![0, 0] : Fin 2 → Nat) = fun _ => 0 := funext fun a => by fin_cases a <;> rfl

/-- Where each array's block sits at grid point t: block row t for the four row-blocked arrays, the one block of the bias. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of block t is row 5000·t + p of the array. -/
theorem row_lt (t : Fin cfg3.N) (p : Fin 5000) : t.val * 5000 + p.val < 100000 := by
  have hN : cfg3.N = 20 := N_3
  have ht := t.isLt
  have hp := p.isLt
  omega

section
variable (V : (c : Dev nD) → (b : Ref sig .tc) → Buf (Elt Ideal) ((c : Thread nD τ).loc b))

theorem read_sum (c : Dev nD) (t : Fin cfg3.N) (p : Fin 5000) (q : Fin 64) :
    iblk3 V c 0 t (ix2 p q) = V c main_v35 (ix2 (⟨t.val * 5000 + p.val, row_lt t p⟩ : Fin 100000) q) := by
  show V c main_v35 (((cfg3.win 0).blk t).view.emb (ix2 p q)) = _
  refine congrArg (V c main_v35) (funext fun a => Fin.ext ?_)
  obtain ⟨e0, e1, -⟩ := block_index t
  match a with
  | ⟨0, _⟩ => show win3_0.index t (0 : Fin 2) * 5000 + 1 * p.val = t.val * 5000 + p.val; rw [e0]; omega
  | ⟨1, _⟩ => show win3_0.index t (1 : Fin 2) * 64 + 1 * q.val = q.val; rw [e1]; omega

theorem read_own (c : Dev nD) (t : Fin cfg3.N) (p : Fin 5000) (q : Fin 64) :
    iblk3 V c 1 t (ix2 p q) = V c main_v25 (ix2 (⟨t.val * 5000 + p.val, row_lt t p⟩ : Fin 100000) q) := by
  show V c main_v25 (((cfg3.win 1).blk t).view.emb (ix2 p q)) = _
  refine congrArg (V c main_v25) (funext fun a => Fin.ext ?_)
  obtain ⟨-, -, e2, e3, -⟩ := block_index t
  match a with
  | ⟨0, _⟩ => show win3_1.index t (0 : Fin 2) * 5000 + 1 * p.val = t.val * 5000 + p.val; rw [e2]; omega
  | ⟨1, _⟩ => show win3_1.index t (1 : Fin 2) * 64 + 1 * q.val = q.val; rw [e3]; omega

theorem read_degree (c : Dev nD) (t : Fin cfg3.N) (p : Fin 5000) :
    iblk3 V c 2 t (ix2 p (0 : Fin 1)) = V c main_v11 (ix2 (⟨t.val * 5000 + p.val, row_lt t p⟩ : Fin 100000) (0 : Fin 1)) := by
  show V c main_v11 (((cfg3.win 2).blk t).view.emb (ix2 p (0 : Fin 1))) = _
  refine congrArg (V c main_v11) (funext fun a => Fin.ext ?_)
  obtain ⟨-, -, -, -, e4, e5, -⟩ := block_index t
  match a with
  | ⟨0, _⟩ => show win3_2.index t (0 : Fin 2) * 5000 + 1 * p.val = t.val * 5000 + p.val; rw [e4]; omega
  | ⟨1, _⟩ => show win3_2.index t (1 : Fin 2) * 1 + 1 * 0 = 0; rw [e5]

theorem read_bias (c : Dev nD) (t : Fin cfg3.N) (q : Fin 64) :
    iblk3 V c 3 t (ix2 (0 : Fin 1) q) = V c main_v36 (ix2 (0 : Fin 1) q) := by
  show V c main_v36 (((cfg3.win 3).blk t).view.emb (ix2 (0 : Fin 1) q)) = _
  refine congrArg (V c main_v36) (funext fun a => Fin.ext ?_)
  obtain ⟨-, -, -, -, -, -, e6, e7, -⟩ := block_index t
  match a with
  | ⟨0, _⟩ => show win3_3.index t (0 : Fin 2) * 1 + 1 * 0 = 0; rw [e6]
  | ⟨1, _⟩ => show win3_3.index t (1 : Fin 2) * 64 + 1 * q.val = q.val; rw [e7]; omega

theorem result_index (t : Fin cfg3.N) (p : Fin 5000) (q : Fin 64) :
    ((cfg3.win 4).blk t).view.emb (ix2 p q) = ix2 (⟨t.val * 5000 + p.val, row_lt t p⟩ : Fin 100000) q := by
  refine funext fun a => Fin.ext ?_
  obtain ⟨-, -, -, -, -, -, -, -, e8, e9⟩ := block_index t
  match a with
  | ⟨0, _⟩ => show win3_4.index t (0 : Fin 2) * 5000 + 1 * p.val = t.val * 5000 + p.val; rw [e8]; omega
  | ⟨1, _⟩ => show win3_4.index t (1 : Fin 2) * 64 + 1 * q.val = q.val; rw [e9]; omega

/-- What point t writes back is block t of `combined` of the arrays as the step finds them. -/
theorem flushed_eq (c : Dev nD) (t : Fin cfg3.N) :
    (dat3 V c).flushed 4 t
      = ((cfg3.win 4).blk t).view.read (Elt Ideal) (combined (V c main_v35) (V c main_v25) (V c main_v11) (V c main_v36)) := by
  show (cfg3.win 4).cut (grid3.coords t) ((dat3 V c).after 4 t) = _
  rw [after3_4]
  unfold out3_4
  rw [View.canon_unit_zero zero_start]
  simp only [View.ld_unit_zero (S := S5000x64) zero_start, View.ld_unit_zero (S := S1x64) zero_start,
    View.ld_unit_zero (S := S5000x1) zero_start]
  funext j
  obtain ⟨p, q, rfl⟩ : ∃ (p : Fin 5000) (q : Fin 64), j = ix2 p q := ⟨j 0, j 1, eq_ix2 j⟩
  show k3_pay1 (iblk3 V c 2 t) (iblk3 V c 0 t) (iblk3 V c 1 t) (iblk3 V c 3 t) (ix2 p q)
    = combined (V c main_v35) (V c main_v25) (V c main_v11) (V c main_v36) (((cfg3.win 4).blk t).view.emb (ix2 p q))
  rw [result_index t p q]
  refine (block_apply _ _ _ _ p q).trans ?_
  rw [read_sum V c t p q, read_own V c t p q, read_degree V c t p, read_bias V c t q]
  rfl

theorem mem_block (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v37).slice (win3_4.rect t)).set ↔ _
  rw [View.set_slice_whole, Rect.mem_set_unit]
  exact Iff.rfl

/-- The twenty row blocks tile the array: row r is in block r / 5000. -/
theorem covered (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by omega⟩, rfl⟩
  obtain ⟨-, -, -, -, -, -, -, -, e8, e9⟩ := block_index t
  refine ⟨t, flush3_4 t, ?_⟩
  rw [mem_block]
  intro a
  match a with
  | ⟨0, _⟩ =>
    show win3_4.index t (0 : Fin 2) * 5000 ≤ (i 0).val ∧ (i 0).val < win3_4.index t (0 : Fin 2) * 5000 + 5000
    rw [e8, ht]; omega
  | ⟨1, _⟩ =>
    show win3_4.index t (1 : Fin 2) * 64 ≤ (i 1).val ∧ (i 1).val < win3_4.index t (1 : Fin 2) * 64 + 64
    rw [e9]; omega

/-- The result array after the step is `combined` of the arrays the step found. -/
theorem final (c : Dev nD) :
    (dat3 V c).arrAt 4 cfg3.N = combined (V c main_v35) (V c main_v25) (V c main_v11) (V c main_v36) :=
  (dat3 V c).arrAt_eq_of_cover 4 _ (fun t _ => flushed_eq V c t) (covered)

end

end Cert.KernelIdeal.Combined64

end
-- ==== Proof.Net.lean ====
/-
  The network the kernel computes, as functions of its six arguments on the extended reals.

  Let dinv v = rsqrt (1 + indegree v), the degree factor of node v, and write it as a column d. One layer, on
  features X with weight W and bias b, is
      H  = scaled X W d            H (v, c)  = (∑ k, X (v, k) · W (k, c)) · d v
      S  = the sum over edges      S (v, c)  = 0 + ∑ over the edges e landing at v of H (source of e, c)
      out = combined S H d b       out (v, c) = d v · (S (v, c) + H (v, c)) + b c     (cut off at zero after the first layer)
  and the network is two such layers, the second on the first one's output. The edge sum adds an edge at the node its
  destination names, read as a signed number and dropped when it names no node; the source is read with a negative
  number counted from the end and then clamped into range. The degree factor, the two index arrays and the zero
  blocks are the very terms the reference computes them by, so they are named by the reference's stages here.
-/
import proofs.«182146_j24318104830702_2_alg».proof.Proof.Gen.KernelIdeal.Frame
import proofs.«182146_j24318104830702_2_alg».proof.Proof.Gen.ReferenceIdeal.Read
import proofs.«182146_j24318104830702_2_alg».proof.Proof.Scaled128
import proofs.«182146_j24318104830702_2_alg».proof.Proof.Combined128
import proofs.«182146_j24318104830702_2_alg».proof.Proof.Scaled64
import proofs.«182146_j24318104830702_2_alg».proof.Proof.Combined64

set_option maxRecDepth 16384

noncomputable section

namespace Cert.Net

open Idealize.ShloMosaic Idealize.ShloMosaic.TcCoe Idealize.SL.Sem
open Cert.ReferenceIdeal.Read

section Defs
variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S128x128, .f32⟩ : BufTy).Contents (Elt Ideal)) (x3 : (⟨Cert.ReferenceIdeal.S128, .f32⟩ : BufTy).Contents (Elt Ideal))
  (x4 : (⟨Cert.ReferenceIdeal.S128x64, .f32⟩ : BufTy).Contents (Elt Ideal)) (x5 : (⟨Cert.ReferenceIdeal.S64, .f32⟩ : BufTy).Contents (Elt Ideal))

/-- The degree factors as a column. -/
def degCol : Cert.KernelIdeal.S100000x1.Idx → EReal :=
  shapeCast Cert.KernelIdeal.S100000x1 (val_main_v11 (F := Ideal) x1) Cert.KernelIdeal.Facts₀.shapeCasts_S100000_S100000x1

/-- First layer: the scaled features. -/
def feat1 : Cert.KernelIdeal.S100000x128.Idx → EReal := Cert.KernelIdeal.Scaled128.scaled x0 x2 (degCol x1)

/-- First layer: the scaled features summed over each node's incoming edges. -/
def edgeSum1 : Cert.KernelIdeal.S100000x128.Idx → EReal :=
  Host.scatterAdd (F := Ideal) (φ := .f32) Cert.ReferenceIdeal.scatter_S100000x128_S1600000x1_S1600000x128_1_0_0_1 (val_main_v37 (F := Ideal)) (val_main_v38 (F := Ideal) x1)
    (Host.gather Cert.ReferenceIdeal.gather_S100000x128_S1600000x1_S1600000x128_1_0_n_n_0_1_1128 (feat1 x0 x1 x2) (val_main_v32 (F := Ideal) x1))

/-- The first bias as a row. -/
def biasRow1 : Cert.KernelIdeal.S1x128.Idx → EReal := shapeCast Cert.KernelIdeal.S1x128 x3 Cert.KernelIdeal.Facts₀.shapeCasts_S128_S1x128

/-- First layer's output. -/
def layer1 : Cert.KernelIdeal.S100000x128.Idx → EReal :=
  Cert.KernelIdeal.Combined128.combined (edgeSum1 x0 x1 x2) (feat1 x0 x1 x2) (degCol x1) (biasRow1 x3)

/-- Second layer: the scaled features of the first layer's output. -/
def feat2 : Cert.KernelIdeal.S100000x64.Idx → EReal := Cert.KernelIdeal.Scaled64.scaled (layer1 x0 x1 x2 x3) x4 (degCol x1)

/-- Second layer: the scaled features summed over each node's incoming edges. -/
def edgeSum2 : Cert.KernelIdeal.S100000x64.Idx → EReal :=
  Host.scatterAdd (F := Ideal) (φ := .f32) Cert.ReferenceIdeal.scatter_S100000x64_S1600000x1_S1600000x64_1_0_0_1 (val_main_v82 (F := Ideal)) (val_main_v83 (F := Ideal) x1)
    (Host.gather Cert.ReferenceIdeal.gather_S100000x64_S1600000x1_S1600000x64_1_0_n_n_0_1_164 (feat2 x0 x1 x2 x3 x4) (val_main_v77 (F := Ideal) x1))

/-- The second bias as a row. -/
def biasRow2 : Cert.KernelIdeal.S1x64.Idx → EReal := shapeCast Cert.KernelIdeal.S1x64 x5 Cert.KernelIdeal.Facts₀.shapeCasts_S64_S1x64

/-- The network's output. -/
def layer2 : Cert.KernelIdeal.S100000x64.Idx → EReal :=
  Cert.KernelIdeal.Combined64.combined (edgeSum2 x0 x1 x2 x3 x4) (feat2 x0 x1 x2 x3 x4) (degCol x1) (biasRow2 x5)

end Defs

end Cert.Net

end
-- ==== Proof.WalkOne.lean ====
/-
  The kernel's buffers, boundary by boundary, up to the first layer's edge sum. The program is a chain: host
  operations, the first scaled feature transform, host operations (gather along the sources, sum at the destinations,
  the bias as a row), … Each buffer a later step reads is followed from where it is written to where it is read:
  a host stretch writes the buffers of its own operations and leaves every other buffer alone; a blocked step leaves
  its result array at the function of its input arrays proved for it, its input arrays as they were, and every other
  buffer alone. So the source and destination lists, the degree column and the arguments travel unchanged, and each
  computed array is the named function (Cert.Net) of the six arguments.
-/
import proofs.«182146_j24318104830702_2_alg».proof.Proof.Net
import Idealize.ShloMosaic.Lib.StableHlo.Run

set_option maxRecDepth 16384

noncomputable section

namespace Cert.KernelIdeal.WalkOne

open Idealize.ShloMosaic Idealize.ShloMosaic.TcCoe Idealize.SL.Sem Idealize.ShloMosaic.StableHlo
open Idealize.ShloMosaic.Pipeline (Dat)
open Cert.KernelIdeal Cert.KernelIdeal.Gen
open Cert.ReferenceIdeal.Read (val_main_v1 val_main_v3)

variable (m : (ℓ : Loc nD τ sig) → Buf (Elt Ideal) ℓ) (ρ : Dev nD → PrngReg) (c : Dev nD)

/-! ## After the first host operations -/

theorem src1 : (W1 m ρ c (Proc.devRef .tc main_v1)) = val_main_v1 (F := Ideal) (m ((c : Thread nD τ).loc main_arg1)) := by
  show StableHlo.after hostOps0 (W0 m ρ c) (Proc.devRef .tc main_v1) = _
  after_results
  rfl
theorem dst1 : (W1 m ρ c (Proc.devRef .tc main_v3)) = val_main_v3 (F := Ideal) (m ((c : Thread nD τ).loc main_arg1)) := by
  show StableHlo.after hostOps0 (W0 m ρ c) (Proc.devRef .tc main_v3) = _
  after_results
  rfl
theorem deg1 : (W1 m ρ c (Proc.devRef .tc main_v11)) = Cert.Net.degCol (m ((c : Thread nD τ).loc main_arg1)) := by
  show StableHlo.after hostOps0 (W0 m ρ c) (Proc.devRef .tc main_v11) = _
  after_results
  rfl
theorem arg0_1 : (W1 m ρ c (Proc.devRef .tc main_arg0)) = (m ((c : Thread nD τ).loc main_arg0)) := by
  show StableHlo.after hostOps0 (W0 m ρ c) (Proc.devRef .tc main_arg0) = _
  after_results
theorem arg2_1 : (W1 m ρ c (Proc.devRef .tc main_arg2)) = (m ((c : Thread nD τ).loc main_arg2)) := by
  show StableHlo.after hostOps0 (W0 m ρ c) (Proc.devRef .tc main_arg2) = _
  after_results
theorem arg3_1 : (W1 m ρ c (Proc.devRef .tc main_arg3)) = (m ((c : Thread nD τ).loc main_arg3)) := by
  show StableHlo.after hostOps0 (W0 m ρ c) (Proc.devRef .tc main_arg3) = _
  after_results
theorem arg4_1 : (W1 m ρ c (Proc.devRef .tc main_arg4)) = (m ((c : Thread nD τ).loc main_arg4)) := by
  show StableHlo.after hostOps0 (W0 m ρ c) (Proc.devRef .tc main_arg4) = _
  after_results
theorem arg5_1 : (W1 m ρ c (Proc.devRef .tc main_arg5)) = (m ((c : Thread nD τ).loc main_arg5)) := by
  show StableHlo.after hostOps0 (W0 m ρ c) (Proc.devRef .tc main_arg5) = _
  after_results

/-! ## After the first scaled feature transform -/

theorem feat1_2 : (W2 m ρ c (Proc.devRef .tc main_v12)) = Cert.Net.feat1 (m ((c : Thread nD τ).loc main_arg0)) (m ((c : Thread nD τ).loc main_arg1)) (m ((c : Thread nD τ).loc main_arg2)) := by
  refine (W2_arr m ρ c 3).trans ((Scaled128.final (V1 m ρ) c).trans ?_)
  show Scaled128.scaled (W1 m ρ c (Proc.devRef .tc main_arg0)) (W1 m ρ c (Proc.devRef .tc main_arg2)) (W1 m ρ c (Proc.devRef .tc main_v11)) = _
  rw [arg0_1, arg2_1, deg1]
  rfl
theorem src2 : (W2 m ρ c (Proc.devRef .tc main_v1)) = val_main_v1 (F := Ideal) (m ((c : Thread nD τ).loc main_arg1)) :=
  (W2_of_ne m ρ c main_v1 (by decide)).trans (src1 m ρ c)
theorem dst2 : (W2 m ρ c (Proc.devRef .tc main_v3)) = val_main_v3 (F := Ideal) (m ((c : Thread nD τ).loc main_arg1)) :=
  (W2_of_ne m ρ c main_v3 (by decide)).trans (dst1 m ρ c)
theorem deg2 : (W2 m ρ c (Proc.devRef .tc main_v11)) = Cert.Net.degCol (m ((c : Thread nD τ).loc main_arg1)) :=
  ((W2_arr m ρ c 2).trans (((dat0 (V1 m ρ) c).arrAt_in 2 rfl _).trans (A_eq0 (V1 m ρ) c 2))).trans (deg1 m ρ c)
theorem arg3_2 : (W2 m ρ c (Proc.devRef .tc main_arg3)) = (m ((c : Thread nD τ).loc main_arg3)) :=
  (W2_of_ne m ρ c main_arg3 (by decide)).trans (arg3_1 m ρ c)
theorem arg4_2 : (W2 m ρ c (Proc.devRef .tc main_arg4)) = (m ((c : Thread nD τ).loc main_arg4)) :=
  (W2_of_ne m ρ c main_arg4 (by decide)).trans (arg4_1 m ρ c)
theorem arg5_2 : (W2 m ρ c (Proc.devRef .tc main_arg5)) = (m ((c : Thread nD τ).loc main_arg5)) :=
  (W2_of_ne m ρ c main_arg5 (by decide)).trans (arg5_1 m ρ c)

/-! ## After the gather along the sources and the sum at the destinations -/

theorem sum1_3 : (W3 m ρ c (Proc.devRef .tc main_v22)) = Cert.Net.edgeSum1 (m ((c : Thread nD τ).loc main_arg0)) (m ((c : Thread nD τ).loc main_arg1)) (m ((c : Thread nD τ).loc main_arg2)) := by
  show StableHlo.after hostOps1 (W2 m ρ c) (Proc.devRef .tc main_v22) = _
  after_results
  rw [dst2, feat1_2, src2]
  rfl

theorem bias1_3 : (W3 m ρ c (Proc.devRef .tc main_v23)) = Cert.Net.biasRow1 (m ((c : Thread nD τ).loc main_arg3)) := by
  show StableHlo.after hostOps1 (W2 m ρ c) (Proc.devRef .tc main_v23) = _
  after_results
  rw [arg3_2]
  rfl
theorem feat1_3 : (W3 m ρ c (Proc.devRef .tc main_v12)) = Cert.Net.feat1 (m ((c : Thread nD τ).loc main_arg0)) (m ((c : Thread nD τ).loc main_arg1)) (m ((c : Thread nD τ).loc main_arg2)) := by
  show StableHlo.after hostOps1 (W2 m ρ c) (Proc.devRef .tc main_v12) = _
  after_results
  exact feat1_2 m ρ c
theorem deg3 : (W3 m ρ c (Proc.devRef .tc main_v11)) = Cert.Net.degCol (m ((c : Thread nD τ).loc main_arg1)) := by
  show StableHlo.after hostOps1 (W2 m ρ c) (Proc.devRef .tc main_v11) = _
  after_results
  exact deg2 m ρ c
theorem src3 : (W3 m ρ c (Proc.devRef .tc main_v1)) = val_main_v1 (F := Ideal) (m ((c : Thread nD τ).loc main_arg1)) := by
  show StableHlo.after hostOps1 (W2 m ρ c) (Proc.devRef .tc main_v1) = _
  after_results
  exact src2 m ρ c
theorem dst3 : (W3 m ρ c (Proc.devRef .tc main_v3)) = val_main_v3 (F := Ideal) (m ((c : Thread nD τ).loc main_arg1)) := by
  show StableHlo.after hostOps1 (W2 m ρ c) (Proc.devRef .tc main_v3) = _
  after_results
  exact dst2 m ρ c
theorem arg4_3 : (W3 m ρ c (Proc.devRef .tc main_arg4)) = (m ((c : Thread nD τ).loc main_arg4)) := by
  show StableHlo.after hostOps1 (W2 m ρ c) (Proc.devRef .tc main_arg4) = _
  after_results
  exact arg4_2 m ρ c
theorem arg5_3 : (W3 m ρ c (Proc.devRef .tc main_arg5)) = (m ((c : Thread nD τ).loc main_arg5)) := by
  show StableHlo.after hostOps1 (W2 m ρ c) (Proc.devRef .tc main_arg5) = _
  after_results
  exact arg5_2 m ρ c

end Cert.KernelIdeal.WalkOne

end
-- ==== Proof.WalkTwo.lean ====
/-
  The kernel's buffers, boundary by boundary, from the first combining step to the result. As before, each buffer a
  later step reads is followed from where it is written to where it is read; the result buffer ends at the network's
  second layer (Cert.Net.layer2) of the six arguments.
-/
import proofs.«182146_j24318104830702_2_alg».proof.Proof.WalkOne

set_option maxRecDepth 16384

noncomputable section

namespace Cert.KernelIdeal.WalkTwo

open Idealize.ShloMosaic Idealize.ShloMosaic.TcCoe Idealize.SL.Sem Idealize.ShloMosaic.StableHlo
open Idealize.ShloMosaic.Pipeline (Dat)
open Cert.KernelIdeal Cert.KernelIdeal.Gen
open Cert.ReferenceIdeal.Read (val_main_v1 val_main_v3)
open Cert.KernelIdeal.WalkOne

variable (m : (ℓ : Loc nD τ sig) → Buf (Elt Ideal) ℓ) (ρ : Dev nD → PrngReg) (c : Dev nD)

/-! ## After the first combining step -/

theorem layer1_4 : (W4 m ρ c (Proc.devRef .tc main_v24)) = Cert.Net.layer1 (m ((c : Thread nD τ).loc main_arg0)) (m ((c : Thread nD τ).loc main_arg1)) (m ((c : Thread nD τ).loc main_arg2)) (m ((c : Thread nD τ).loc main_arg3)) := by
  refine (W4_arr m ρ c 4).trans ((Combined128.final (V3 m ρ) c).trans ?_)
  show Combined128.combined (W3 m ρ c (Proc.devRef .tc main_v22)) (W3 m ρ c (Proc.devRef .tc main_v12)) (W3 m ρ c (Proc.devRef .tc main_v11)) (W3 m ρ c (Proc.devRef .tc main_v23)) = _
  rw [sum1_3, feat1_3, deg3, bias1_3]
  rfl
theorem deg4 : (W4 m ρ c (Proc.devRef .tc main_v11)) = Cert.Net.degCol (m ((c : Thread nD τ).loc main_arg1)) :=
  ((W4_arr m ρ c 2).trans (((dat1 (V3 m ρ) c).arrAt_in 2 rfl _).trans (A_eq1 (V3 m ρ) c 2))).trans (deg3 m ρ c)
theorem src4 : (W4 m ρ c (Proc.devRef .tc main_v1)) = val_main_v1 (F := Ideal) (m ((c : Thread nD τ).loc main_arg1)) :=
  (W4_of_ne m ρ c main_v1 (by decide)).trans (src3 m ρ c)
theorem dst4 : (W4 m ρ c (Proc.devRef .tc main_v3)) = val_main_v3 (F := Ideal) (m ((c : Thread nD τ).loc main_arg1)) :=
  (W4_of_ne m ρ c main_v3 (by decide)).trans (dst3 m ρ c)
theorem arg4_4 : (W4 m ρ c (Proc.devRef .tc main_arg4)) = (m ((c : Thread nD τ).loc main_arg4)) :=
  (W4_of_ne m ρ c main_arg4 (by decide)).trans (arg4_3 m ρ c)
theorem arg5_4 : (W4 m ρ c (Proc.devRef .tc main_arg5)) = (m ((c : Thread nD τ).loc main_arg5)) :=
  (W4_of_ne m ρ c main_arg5 (by decide)).trans (arg5_3 m ρ c)

/-! ## After the second scaled feature transform -/

theorem feat2_5 : (W5 m ρ c (Proc.devRef .tc main_v25)) = Cert.Net.feat2 (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 3).trans ((Scaled64.final (V4 m ρ) c).trans ?_)
  show Scaled64.scaled (W4 m ρ c (Proc.devRef .tc main_v24)) (W4 m ρ c (Proc.devRef .tc main_arg4)) (W4 m ρ c (Proc.devRef .tc main_v11)) = _
  rw [layer1_4, arg4_4, deg4]
  rfl
theorem deg5 : (W5 m ρ c (Proc.devRef .tc main_v11)) = Cert.Net.degCol (m ((c : Thread nD τ).loc main_arg1)) :=
  ((W5_arr m ρ c 2).trans (((dat2 (V4 m ρ) c).arrAt_in 2 rfl _).trans (A_eq2 (V4 m ρ) c 2))).trans (deg4 m ρ c)
theorem src5 : (W5 m ρ c (Proc.devRef .tc main_v1)) = val_main_v1 (F := Ideal) (m ((c : Thread nD τ).loc main_arg1)) :=
  (W5_of_ne m ρ c main_v1 (by decide)).trans (src4 m ρ c)
theorem dst5 : (W5 m ρ c (Proc.devRef .tc main_v3)) = val_main_v3 (F := Ideal) (m ((c : Thread nD τ).loc main_arg1)) :=
  (W5_of_ne m ρ c main_v3 (by decide)).trans (dst4 m ρ c)
theorem arg5_5 : (W5 m ρ c (Proc.devRef .tc main_arg5)) = (m ((c : Thread nD τ).loc main_arg5)) :=
  (W5_of_ne m ρ c main_arg5 (by decide)).trans (arg5_4 m ρ c)

/-! ## After the second gather along the sources and sum at the destinations -/

theorem sum2_6 : (W6 m ρ c (Proc.devRef .tc main_v35)) = Cert.Net.edgeSum2 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v35) = _
  after_results
  rw [dst5, feat2_5, src5]
  rfl

theorem bias2_6 : (W6 m ρ c (Proc.devRef .tc main_v36)) = Cert.Net.biasRow2 (m ((c : Thread nD τ).loc main_arg5)) := by
  show StableHlo.after hostOps3 (W5 m ρ c) (Proc.devRef .tc main_v36) = _
  after_results
  rw [arg5_5]
  rfl
theorem feat2_6 : (W6 m ρ c (Proc.devRef .tc main_v25)) = Cert.Net.feat2 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v25) = _
  after_results
  exact feat2_5 m ρ c
theorem deg6 : (W6 m ρ c (Proc.devRef .tc main_v11)) = Cert.Net.degCol (m ((c : Thread nD τ).loc main_arg1)) := by
  show StableHlo.after hostOps3 (W5 m ρ c) (Proc.devRef .tc main_v11) = _
  after_results
  exact deg5 m ρ c

/-! ## After the last combining step: the result -/

theorem result_7 : (W7 m ρ c (Proc.devRef .tc main_v37)) = Cert.Net.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ((Combined64.final (V6 m ρ) c).trans ?_)
  show Combined64.combined (W6 m ρ c (Proc.devRef .tc main_v35)) (W6 m ρ c (Proc.devRef .tc main_v25)) (W6 m ρ c (Proc.devRef .tc main_v11)) (W6 m ρ c (Proc.devRef .tc main_v36)) = _
  rw [sum2_6, feat2_6, deg6, bias2_6]
  rfl

end Cert.KernelIdeal.WalkTwo

end
-- ==== Proof.KernelValue.lean ====
/-
  What the kernel computes: from any launch memory with zero counters, every weakly fair execution terminates, nothing
  faulting, with the result array equal to the network's second layer (Cert.Net.layer2) of the six argument arrays and
  the argument arrays as launched. The run leaves the result buffer at the last boundary's contents; following every
  buffer along the chain identifies those contents.
-/
import proofs.«182146_j24318104830702_2_alg».proof.Proof.KernelRun
import proofs.«182146_j24318104830702_2_alg».proof.Proof.WalkTwo

noncomputable section

namespace Cert.KernelIdeal.Named

open Idealize.ShloMosaic Idealize.ShloMosaic.TcCoe Idealize.SL.Sem
open Cert.KernelIdeal Cert.KernelIdeal.Gen

theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v37)
        = Cert.Net.layer2 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (WalkTwo.result_7 m ρ c), (h c).2⟩) (run_named (F := Ideal) m ρ)

end Cert.KernelIdeal.Named

end
-- ==== Proof.NetFacts.lean ====
/-
  The reshaped pieces of the network read at an index: the column of degree factors at row v is the factor of node v,
  and a bias spread as a row reads, at column q, the bias of column q. A reshape keeps an entry's position in
  row-major order: entry v of a list of 100000 is entry (v, 0) of a 100000 × 1 column (v · 1 + 0 = v), and entry q of
  a list of n is entry (0, q) of a 1 × n row (0 · n + q = q).
-/
import proofs.«182146_j24318104830702_2_alg».proof.Proof.Net
import Idealize.ShloMosaic.Lib.Pipeline.Value
import Idealize.ShloMosaic.Lib.ValueIdx
import Idealize.ShloMosaic.Lib.ValueLayout

noncomputable section

namespace Cert.NetFacts

open Idealize.ShloMosaic Idealize.ShloMosaic.TcCoe Idealize.ShloMosaic.ValueIdx Idealize.SL.Sem
open Cert.ReferenceIdeal.Read

/-- The degree column at row v is node v's degree factor. -/
theorem degCol_apply (x1 : (⟨Cert.ReferenceIdeal.S2x1600000, .i32⟩ : BufTy).Contents (Elt Ideal)) (v : Fin 100000) :
    Cert.Net.degCol x1 (ix2 v (0 : Fin 1)) = val_main_v11 (F := Ideal) x1 (ix1 v) := by
  unfold Cert.Net.degCol
  refine shapeCast_apply _ _ (ix2 v (0 : Fin 1)) (ix1 v) ?_
  rw [Shape.rowMajor_val_two, Shape.rowMajor_val_one]
  show v.val = v.val * 1 + 0
  omega

/-- The first bias row at column q is the bias of column q. -/
theorem biasRow1_apply (x3 : (⟨Cert.ReferenceIdeal.S128, .f32⟩ : BufTy).Contents (Elt Ideal)) (q : Fin 128) :
    Cert.Net.biasRow1 x3 (ix2 (0 : Fin 1) q) = x3 (ix1 q) := by
  unfold Cert.Net.biasRow1
  exact shapeCast_a_1a_apply x3 _ (0 : Fin 1) q

/-- The second bias row at column q is the bias of column q. -/
theorem biasRow2_apply (x5 : (⟨Cert.ReferenceIdeal.S64, .f32⟩ : BufTy).Contents (Elt Ideal)) (q : Fin 64) :
    Cert.Net.biasRow2 x5 (ix2 (0 : Fin 1) q) = x5 (ix1 q) := by
  unfold Cert.Net.biasRow2
  exact shapeCast_a_1a_apply x5 _ (0 : Fin 1) q

end Cert.NetFacts

end
-- ==== Proof.EdgeIndex.lean ====
import proofs.«182146_j24318104830702_2_alg».proof.ReferenceIdeal
import Idealize.ShloMosaic.Lib.ValueIdx

/-!
# Where the edge gathers read and the edge scatters land

Each edge `e` of the graph carries one signed 32-bit node index, stored at `[e, 0]` of an index array of shape
`[1600000, 1]`. A gather reads the node array at that index clamped into `[0, 99999]`; a scatter-add reads the
index unclamped and drops an update that would land outside the node array, so an update that does land has its
index in range. On a feature axis both keep the update's own coordinate.
-/

namespace Cert.EdgeIndex

open Idealize.ShloMosaic Idealize.ShloMosaic.ValueIdx Cert.ReferenceIdeal

variable [Facts₀]

/-- The index-array position `[e, 0]` of edge `e`. -/
abbrev edgeAt (e : Fin 1600000) : S1600000x1.Idx := ix2 e (0 : Fin 1)

/-! Membership in the literal axis lists of the dimension numbers. -/
theorem nil2 (a : Fin 2) : a ∉ ([] : List (Fin 2)) := List.not_mem_nil
theorem nil1 (a : Fin 1) : a ∉ ([] : List (Fin 1)) := List.not_mem_nil
theorem mem00 : (0 : Fin 2) ∈ ([0] : List (Fin 2)) := by decide
theorem nmem10 : (1 : Fin 2) ∉ ([0] : List (Fin 2)) := by decide
theorem nmem01 : (0 : Fin 2) ∉ ([1] : List (Fin 2)) := by decide
theorem mem11 : (1 : Fin 2) ∈ ([1] : List (Fin 2)) := by decide
theorem mem00' : (0 : Fin 1) ∈ ([0] : List (Fin 1)) := by decide

/-- Row of the rank-2 gather (128 features): the edge's start index, read signed and clamped into `[0, 99999]`. -/
theorem gather128_row (idx : IVec S1600000x1 32) (j : S1600000x128.Idx) :
    ((gather_S100000x128_S1600000x1_S1600000x128_1_0_n_n_0_1_1128.operandIdx j idx) 0).val
      = min (idx (edgeAt ⟨(j 0).val, idx2_lt0 j⟩)).toInt.toNat 99999 := by
  show gather_S100000x128_S1600000x1_S1600000x128_1_0_n_n_0_1_1128.start j idx 0 + gather_S100000x128_S1600000x1_S1600000x128_1_0_n_n_0_1_1128.batchCoord j 0 + gather_S100000x128_S1600000x1_S1600000x128_1_0_n_n_0_1_1128.offCoord j 0 = _
  rw [GatherDims.batchCoord_eq_zero _ _ _ (nil2 0),
    GatherDims.offCoord_eq_zero _ _ _ (fun h => ((GatherDims.mem_sKept _ _).mp h).1 mem00)]
  simp only [Nat.add_zero]
  unfold GatherDims.start
  rw [dif_pos (show (0 : Fin 2) ∈ gather_S100000x128_S1600000x1_S1600000x128_1_0_n_n_0_1_1128.startIndexMap from mem00)]
  have hsi : gather_S100000x128_S1600000x1_S1600000x128_1_0_n_n_0_1_1128.siIdx j ⟨List.idxOf (0 : Fin 2) gather_S100000x128_S1600000x1_S1600000x128_1_0_n_n_0_1_1128.startIndexMap,
      List.idxOf_lt_length_iff.2 mem00⟩ = edgeAt ⟨(j 0).val, idx2_lt0 j⟩ := by
    funext b; refine Fin.ext ?_
    match b with
    | ⟨0, _⟩ => rfl
    | ⟨1, _⟩ => rfl
  rw [hsi]
  rfl

/-- Column of the rank-2 gather (128 features): the result's own feature coordinate. -/
theorem gather128_col (idx : IVec S1600000x1 32) (j : S1600000x128.Idx) :
    ((gather_S100000x128_S1600000x1_S1600000x128_1_0_n_n_0_1_1128.operandIdx j idx) 1).val = (j 1).val := by
  show gather_S100000x128_S1600000x1_S1600000x128_1_0_n_n_0_1_1128.start j idx 1 + gather_S100000x128_S1600000x1_S1600000x128_1_0_n_n_0_1_1128.batchCoord j 1 + gather_S100000x128_S1600000x1_S1600000x128_1_0_n_n_0_1_1128.offCoord j 1 = _
  rw [GatherDims.batchCoord_eq_zero _ _ _ (nil2 1)]
  unfold GatherDims.start GatherDims.offCoord
  rw [dif_neg (show (1 : Fin 2) ∉ gather_S100000x128_S1600000x1_S1600000x128_1_0_n_n_0_1_1128.startIndexMap from nmem10),
    dif_pos (show (1 : Fin 2) ∈ gather_S100000x128_S1600000x1_S1600000x128_1_0_n_n_0_1_1128.sKept from (GatherDims.mem_sKept _ _).mpr ⟨nmem10, nil2 1⟩)]
  simp only [Nat.add_zero, Nat.zero_add]
  rfl

/-- Row of the rank-2 gather (64 features): the edge's start index, read signed and clamped into `[0, 99999]`. -/
theorem gather64_row (idx : IVec S1600000x1 32) (j : S1600000x64.Idx) :
    ((gather_S100000x64_S1600000x1_S1600000x64_1_0_n_n_0_1_164.operandIdx j idx) 0).val
      = min (idx (edgeAt ⟨(j 0).val, idx2_lt0 j⟩)).toInt.toNat 99999 := by
  show gather_S100000x64_S1600000x1_S1600000x64_1_0_n_n_0_1_164.start j idx 0 + gather_S100000x64_S1600000x1_S1600000x64_1_0_n_n_0_1_164.batchCoord j 0 + gather_S100000x64_S1600000x1_S1600000x64_1_0_n_n_0_1_164.offCoord j 0 = _
  rw [GatherDims.batchCoord_eq_zero _ _ _ (nil2 0),
    GatherDims.offCoord_eq_zero _ _ _ (fun h => ((GatherDims.mem_sKept _ _).mp h).1 mem00)]
  simp only [Nat.add_zero]
  unfold GatherDims.start
  rw [dif_pos (show (0 : Fin 2) ∈ gather_S100000x64_S1600000x1_S1600000x64_1_0_n_n_0_1_164.startIndexMap from mem00)]
  have hsi : gather_S100000x64_S1600000x1_S1600000x64_1_0_n_n_0_1_164.siIdx j ⟨List.idxOf (0 : Fin 2) gather_S100000x64_S1600000x1_S1600000x64_1_0_n_n_0_1_164.startIndexMap,
      List.idxOf_lt_length_iff.2 mem00⟩ = edgeAt ⟨(j 0).val, idx2_lt0 j⟩ := by
    funext b; refine Fin.ext ?_
    match b with
    | ⟨0, _⟩ => rfl
    | ⟨1, _⟩ => rfl
  rw [hsi]
  rfl

/-- Column of the rank-2 gather (64 features): the result's own feature coordinate. -/
theorem gather64_col (idx : IVec S1600000x1 32) (j : S1600000x64.Idx) :
    ((gather_S100000x64_S1600000x1_S1600000x64_1_0_n_n_0_1_164.operandIdx j idx) 1).val = (j 1).val := by
  show gather_S100000x64_S1600000x1_S1600000x64_1_0_n_n_0_1_164.start j idx 1 + gather_S100000x64_S1600000x1_S1600000x64_1_0_n_n_0_1_164.batchCoord j 1 + gather_S100000x64_S1600000x1_S1600000x64_1_0_n_n_0_1_164.offCoord j 1 = _
  rw [GatherDims.batchCoord_eq_zero _ _ _ (nil2 1)]
  unfold GatherDims.start GatherDims.offCoord
  rw [dif_neg (show (1 : Fin 2) ∉ gather_S100000x64_S1600000x1_S1600000x64_1_0_n_n_0_1_164.startIndexMap from nmem10),
    dif_pos (show (1 : Fin 2) ∈ gather_S100000x64_S1600000x1_S1600000x64_1_0_n_n_0_1_164.sKept from (GatherDims.mem_sKept _ _).mpr ⟨nmem10, nil2 1⟩)]
  simp only [Nat.add_zero, Nat.zero_add]
  rfl

/-- The rank-1 gather (one value per node): the edge's start index, read signed and clamped into `[0, 99999]`. -/
theorem gather1_row (idx : IVec S1600000x1 32) (e : S1600000.Idx) :
    ((gather_S100000_S1600000x1_S1600000_n_0_n_n_0_1_1.operandIdx e idx) 0).val
      = min (idx (edgeAt ⟨(e 0).val, (e 0).isLt⟩)).toInt.toNat 99999 := by
  show gather_S100000_S1600000x1_S1600000_n_0_n_n_0_1_1.start e idx 0 + gather_S100000_S1600000x1_S1600000_n_0_n_n_0_1_1.batchCoord e 0 + gather_S100000_S1600000x1_S1600000_n_0_n_n_0_1_1.offCoord e 0 = _
  rw [GatherDims.batchCoord_eq_zero _ _ _ (nil1 0),
    GatherDims.offCoord_eq_zero _ _ _ (fun h => ((GatherDims.mem_sKept _ _).mp h).1 mem00')]
  simp only [Nat.add_zero]
  unfold GatherDims.start
  rw [dif_pos (show (0 : Fin 1) ∈ gather_S100000_S1600000x1_S1600000_n_0_n_n_0_1_1.startIndexMap from mem00')]
  have hsi : gather_S100000_S1600000x1_S1600000_n_0_n_n_0_1_1.siIdx e ⟨List.idxOf (0 : Fin 1) gather_S100000_S1600000x1_S1600000_n_0_n_n_0_1_1.startIndexMap,
      List.idxOf_lt_length_iff.2 mem00'⟩ = edgeAt ⟨(e 0).val, (e 0).isLt⟩ := by
    funext b; refine Fin.ext ?_
    match b with
    | ⟨0, _⟩ => rfl
    | ⟨1, _⟩ => rfl
  rw [hsi]
  rfl

/-- Where an update of the rank-2 scatter-add (128 features) lands: the row is the edge's start index read signed
    (so it lies in `[0, 100000)`), the column the update's own feature coordinate. -/
theorem scatter128_lands (idx : IVec S1600000x1 32) (j : S1600000x128.Idx) (i : S100000x128.Idx)
    (h : scatter_S100000x128_S1600000x1_S1600000x128_1_0_0_1.resultIdx? j idx = some i) :
    (idx (edgeAt ⟨(j 0).val, idx2_lt0 j⟩)).toInt = ((i 0).val : ℤ) ∧ (j 1).val = (i 1).val := by
  have hs0 : scatter_S100000x128_S1600000x1_S1600000x128_1_0_0_1.start j idx 0 = (idx (edgeAt ⟨(j 0).val, idx2_lt0 j⟩)).toInt := by
    unfold ScatterDims.start
    rw [dif_pos (show (0 : Fin 2) ∈ scatter_S100000x128_S1600000x1_S1600000x128_1_0_0_1.scatterDimsToOperandDims from mem00)]
    have hsi : scatter_S100000x128_S1600000x1_S1600000x128_1_0_0_1.siIdx j ⟨List.idxOf (0 : Fin 2) scatter_S100000x128_S1600000x1_S1600000x128_1_0_0_1.scatterDimsToOperandDims,
        List.idxOf_lt_length_iff.2 mem00⟩ = edgeAt ⟨(j 0).val, idx2_lt0 j⟩ := by
      funext b; refine Fin.ext ?_
      match b with
      | ⟨0, _⟩ => rfl
      | ⟨1, _⟩ => rfl
    rw [hsi]
  have hw0 : scatter_S100000x128_S1600000x1_S1600000x128_1_0_0_1.window j 0 = 0 := by
    unfold ScatterDims.window
    rw [dif_neg (show (0 : Fin 2) ∉ scatter_S100000x128_S1600000x1_S1600000x128_1_0_0_1.sKept from nmem01)]
  have hs1 : scatter_S100000x128_S1600000x1_S1600000x128_1_0_0_1.start j idx 1 = 0 := by
    unfold ScatterDims.start
    rw [dif_neg (show (1 : Fin 2) ∉ scatter_S100000x128_S1600000x1_S1600000x128_1_0_0_1.scatterDimsToOperandDims from nmem10)]
  have hw1 : scatter_S100000x128_S1600000x1_S1600000x128_1_0_0_1.window j 1 = (j 1).val := by
    unfold ScatterDims.window
    rw [dif_pos (show (1 : Fin 2) ∈ scatter_S100000x128_S1600000x1_S1600000x128_1_0_0_1.sKept from mem11)]
    rfl
  unfold ScatterDims.resultIdx? at h
  split at h
  · rename_i hin
    have hi := Option.some.inj h
    have h0 := (hin 0).1
    rw [hs0, hw0] at h0
    constructor
    · rw [← hi]
      show _ = (((scatter_S100000x128_S1600000x1_S1600000x128_1_0_0_1.start j idx 0 + (scatter_S100000x128_S1600000x1_S1600000x128_1_0_0_1.window j 0 : ℤ)).toNat : ℕ) : ℤ)
      rw [hs0, hw0]
      omega
    · rw [← hi]
      show _ = (scatter_S100000x128_S1600000x1_S1600000x128_1_0_0_1.start j idx 1 + (scatter_S100000x128_S1600000x1_S1600000x128_1_0_0_1.window j 1 : ℤ)).toNat
      rw [hs1, hw1]
      omega
  · exact absurd h (by simp)

/-- Where an update of the rank-2 scatter-add (64 features) lands: the row is the edge's start index read signed
    (so it lies in `[0, 100000)`), the column the update's own feature coordinate. -/
theorem scatter64_lands (idx : IVec S1600000x1 32) (j : S1600000x64.Idx) (i : S100000x64.Idx)
    (h : scatter_S100000x64_S1600000x1_S1600000x64_1_0_0_1.resultIdx? j idx = some i) :
    (idx (edgeAt ⟨(j 0).val, idx2_lt0 j⟩)).toInt = ((i 0).val : ℤ) ∧ (j 1).val = (i 1).val := by
  have hs0 : scatter_S100000x64_S1600000x1_S1600000x64_1_0_0_1.start j idx 0 = (idx (edgeAt ⟨(j 0).val, idx2_lt0 j⟩)).toInt := by
    unfold ScatterDims.start
    rw [dif_pos (show (0 : Fin 2) ∈ scatter_S100000x64_S1600000x1_S1600000x64_1_0_0_1.scatterDimsToOperandDims from mem00)]
    have hsi : scatter_S100000x64_S1600000x1_S1600000x64_1_0_0_1.siIdx j ⟨List.idxOf (0 : Fin 2) scatter_S100000x64_S1600000x1_S1600000x64_1_0_0_1.scatterDimsToOperandDims,
        List.idxOf_lt_length_iff.2 mem00⟩ = edgeAt ⟨(j 0).val, idx2_lt0 j⟩ := by
      funext b; refine Fin.ext ?_
      match b with
      | ⟨0, _⟩ => rfl
      | ⟨1, _⟩ => rfl
    rw [hsi]
  have hw0 : scatter_S100000x64_S1600000x1_S1600000x64_1_0_0_1.window j 0 = 0 := by
    unfold ScatterDims.window
    rw [dif_neg (show (0 : Fin 2) ∉ scatter_S100000x64_S1600000x1_S1600000x64_1_0_0_1.sKept from nmem01)]
  have hs1 : scatter_S100000x64_S1600000x1_S1600000x64_1_0_0_1.start j idx 1 = 0 := by
    unfold ScatterDims.start
    rw [dif_neg (show (1 : Fin 2) ∉ scatter_S100000x64_S1600000x1_S1600000x64_1_0_0_1.scatterDimsToOperandDims from nmem10)]
  have hw1 : scatter_S100000x64_S1600000x1_S1600000x64_1_0_0_1.window j 1 = (j 1).val := by
    unfold ScatterDims.window
    rw [dif_pos (show (1 : Fin 2) ∈ scatter_S100000x64_S1600000x1_S1600000x64_1_0_0_1.sKept from mem11)]
    rfl
  unfold ScatterDims.resultIdx? at h
  split at h
  · rename_i hin
    have hi := Option.some.inj h
    have h0 := (hin 0).1
    rw [hs0, hw0] at h0
    constructor
    · rw [← hi]
      show _ = (((scatter_S100000x64_S1600000x1_S1600000x64_1_0_0_1.start j idx 0 + (scatter_S100000x64_S1600000x1_S1600000x64_1_0_0_1.window j 0 : ℤ)).toNat : ℕ) : ℤ)
      rw [hs0, hw0]
      omega
    · rw [← hi]
      show _ = (scatter_S100000x64_S1600000x1_S1600000x64_1_0_0_1.start j idx 1 + (scatter_S100000x64_S1600000x1_S1600000x64_1_0_0_1.window j 1 : ℤ)).toNat
      rw [hs1, hw1]
      omega
  · exact absurd h (by simp)

omit [Facts₀] in
/-- A nonnegative signed index is left alone by the wrap-around of negative indices (`a < 0 ? a + 100000 : a`). -/
theorem wrap_of_nonneg (a : BitVec 32) (h : 0 ≤ a.toInt) :
    Scalar.select (IntOp.cmpi .slt a 0#32) (IntOp.addi a 100000#32) a = a := by
  have hs : a.slt 0#32 = false := by simp [BitVec.slt, h]
  unfold Scalar.select IntOp.cmpi
  simp [hs]

end Cert.EdgeIndex
-- ==== Proof.NetReads.lean ====
/-
  The network's arrays read at an index, in the form the comparison with the reference takes.

  With h = X·W the layer's transformed features and dinv the degree factors: the scaled features at row r are
  h · dinv r; the edge sum at node p, column q, is 0 plus the sum, over the entries j of the gathered array that land
  at (p, q), of the scaled features at the row the gather reads for j; and the layer's output at (p, q) is
  dinv p · (that sum + h (p, q) · dinv p) + bias q, cut off at zero after the first layer. For the second layer the
  transformed features are the product of the first layer's output with the second weight, which is the reference's own
  product once the first layers are known to agree.
-/
import proofs.«182146_j24318104830702_2_alg».proof.Proof.Net
import proofs.«182146_j24318104830702_2_alg».proof.Proof.NetFacts
import proofs.«182146_j24318104830702_2_alg».proof.Proof.EdgeIndex

set_option maxRecDepth 16384

noncomputable section

namespace Cert.NetReads

open Idealize.ShloMosaic Idealize.ShloMosaic.TcCoe Idealize.ShloMosaic.ValueIdx Idealize.SL.Sem
open Cert.ReferenceIdeal Cert.ReferenceIdeal.Read Cert.EdgeIndex

/-- The accumulating scatter at an index: the operand there plus the updates that land there. -/
theorem scatterAdd_apply {s si u : Shape} {w : Nat} (d : ScatterDims s si u) (x : s.Idx → EReal) (idx : IVec si w)
    (upd : u.Idx → EReal) (i : s.Idx) :
    Host.scatterAdd (F := Ideal) (φ := .f32) d x idx upd i
      = x i + ∑ j ∈ Finset.univ.filter (fun j => d.resultIdx? j idx = some i), upd j := rfl

/-- The row of the 128-wide array that the gather reads for entry j. -/
abbrev row128 (idx : IVec S1600000x1 32) (j : S1600000x128.Idx) : Fin 100000 :=
  ⟨(((gather_S100000x128_S1600000x1_S1600000x128_1_0_n_n_0_1_1128).operandIdx j idx) 0).val, idx2_lt0 _⟩

/-- The row of the 64-wide array that the gather reads for entry j. -/
abbrev row64 (idx : IVec S1600000x1 32) (j : S1600000x64.Idx) : Fin 100000 :=
  ⟨(((gather_S100000x64_S1600000x1_S1600000x64_1_0_n_n_0_1_164).operandIdx j idx) 0).val, idx2_lt0 _⟩

section
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-! ## First layer -/

theorem left128 (i : S100000x128.Idx) (k : Fin 128) : lidx_main_v4 i k = ix2 (⟨(i 0).val, (i 0).isLt⟩ : Fin 100000) k :=
  funext fun a => by match a with | ⟨0, _⟩ => rfl | ⟨1, _⟩ => rfl
theorem right128 (i : S100000x128.Idx) (k : Fin 128) : ridx_main_v4 i k = ix2 k (⟨(i 1).val, (i 1).isLt⟩ : Fin 128) :=
  funext fun a => by match a with | ⟨0, _⟩ => rfl | ⟨1, _⟩ => rfl

/-- The scaled features at an index: the transformed features there times the row's degree factor. -/
theorem feat1_apply (i : S100000x128.Idx) :
    Cert.Net.feat1 x0 x1 x2 i
      = val_main_v4 (F := Ideal) x0 x2 i * val_main_v11 (F := Ideal) x1 (ix1 (⟨(i 0).val, (i 0).isLt⟩ : Fin 100000)) := by
  rw [val_main_v4_apply]
  simp only [left128, right128]
  rw [← NetFacts.degCol_apply x1 ⟨(i 0).val, (i 0).isLt⟩]
  rfl

theorem zero128 (i : S100000x128.Idx) : val_main_v37 (F := Ideal) i = 0 := by
  rw [val_main_v37_apply]; exact Ideal.ofBits_zero_f32

/-- The edge sum at node p, column q. -/
theorem edgeSum1_apply (p : Fin 100000) (q : Fin 128) :
    Cert.Net.edgeSum1 x0 x1 x2 (ix2 p q)
      = (0 : EReal) + ∑ j ∈ Finset.univ.filter
          (fun j => (scatter_S100000x128_S1600000x1_S1600000x128_1_0_0_1).resultIdx? j (val_main_v38 (F := Ideal) x1) = some (ix2 p q)),
          val_main_v4 (F := Ideal) x0 x2 ((gather_S100000x128_S1600000x1_S1600000x128_1_0_n_n_0_1_1128).operandIdx j (val_main_v32 (F := Ideal) x1))
            * val_main_v11 (F := Ideal) x1 (ix1 (row128 (val_main_v32 (F := Ideal) x1) j)) := by
  unfold Cert.Net.edgeSum1
  rw [scatterAdd_apply, zero128]
  refine congrArg (fun s : EReal => (0 : EReal) + s) ?_
  refine Finset.sum_congr rfl fun j _ => ?_
  show Cert.Net.feat1 x0 x1 x2 ((gather_S100000x128_S1600000x1_S1600000x128_1_0_n_n_0_1_1128).operandIdx j (val_main_v32 (F := Ideal) x1)) = _
  rw [feat1_apply]

/-- The first layer's output at node p, column q. -/
theorem layer1_apply (p : Fin 100000) (q : Fin 128) :
    Cert.Net.layer1 x0 x1 x2 x3 (ix2 p q)
      = max (val_main_v11 (F := Ideal) x1 (ix1 p) * (((0 : EReal) + ∑ j ∈ Finset.univ.filter
              (fun j => (scatter_S100000x128_S1600000x1_S1600000x128_1_0_0_1).resultIdx? j (val_main_v38 (F := Ideal) x1) = some (ix2 p q)),
              val_main_v4 (F := Ideal) x0 x2 ((gather_S100000x128_S1600000x1_S1600000x128_1_0_n_n_0_1_1128).operandIdx j (val_main_v32 (F := Ideal) x1))
                * val_main_v11 (F := Ideal) x1 (ix1 (row128 (val_main_v32 (F := Ideal) x1) j)))
            + val_main_v4 (F := Ideal) x0 x2 (ix2 p q) * val_main_v11 (F := Ideal) x1 (ix1 p)) + x3 (ix1 q))
          (Ideal.ofBits .f32 0x00000000#32) := by
  show max (Cert.Net.degCol x1 (ix2 p (0 : Fin 1)) * (Cert.Net.edgeSum1 x0 x1 x2 (ix2 p q) + Cert.Net.feat1 x0 x1 x2 (ix2 p q))
      + Cert.Net.biasRow1 x3 (ix2 (0 : Fin 1) q)) (Ideal.ofBits .f32 0x00000000#32) = _
  rw [NetFacts.degCol_apply, edgeSum1_apply, feat1_apply, NetFacts.biasRow1_apply]

/-! ## Second layer -/

theorem left64 (i : S100000x64.Idx) (k : Fin 128) : lidx_main_v49 i k = ix2 (⟨(i 0).val, (i 0).isLt⟩ : Fin 100000) k :=
  funext fun a => by match a with | ⟨0, _⟩ => rfl | ⟨1, _⟩ => rfl
theorem right64 (i : S100000x64.Idx) (k : Fin 128) : ridx_main_v49 i k = ix2 k (⟨(i 1).val, (i 1).isLt⟩ : Fin 64) :=
  funext fun a => by match a with | ⟨0, _⟩ => rfl | ⟨1, _⟩ => rfl

/-- The second layer's scaled features at an index, once the first layers agree. -/
theorem feat2_apply (hL : val_main_v48 (F := Ideal) x0 x1 x2 x3 = Cert.Net.layer1 x0 x1 x2 x3) (i : S100000x64.Idx) :
    Cert.Net.feat2 x0 x1 x2 x3 x4 i
      = val_main_v49 (F := Ideal) x0 x1 x2 x3 x4 i * val_main_v11 (F := Ideal) x1 (ix1 (⟨(i 0).val, (i 0).isLt⟩ : Fin 100000)) := by
  rw [val_main_v49_apply, hL]
  simp only [left64, right64]
  rw [← NetFacts.degCol_apply x1 ⟨(i 0).val, (i 0).isLt⟩]
  rfl

theorem zero64 (i : S100000x64.Idx) : val_main_v82 (F := Ideal) i = 0 := by
  rw [val_main_v82_apply]; exact Ideal.ofBits_zero_f32

/-- The second edge sum at node p, column q. -/
theorem edgeSum2_apply (hL : val_main_v48 (F := Ideal) x0 x1 x2 x3 = Cert.Net.layer1 x0 x1 x2 x3) (p : Fin 100000) (q : Fin 64) :
    Cert.Net.edgeSum2 x0 x1 x2 x3 x4 (ix2 p q)
      = (0 : EReal) + ∑ j ∈ Finset.univ.filter
          (fun j => (scatter_S100000x64_S1600000x1_S1600000x64_1_0_0_1).resultIdx? j (val_main_v83 (F := Ideal) x1) = some (ix2 p q)),
          val_main_v49 (F := Ideal) x0 x1 x2 x3 x4 ((gather_S100000x64_S1600000x1_S1600000x64_1_0_n_n_0_1_164).operandIdx j (val_main_v77 (F := Ideal) x1))
            * val_main_v11 (F := Ideal) x1 (ix1 (row64 (val_main_v77 (F := Ideal) x1) j)) := by
  unfold Cert.Net.edgeSum2
  rw [scatterAdd_apply, zero64]
  refine congrArg (fun s : EReal => (0 : EReal) + s) ?_
  refine Finset.sum_congr rfl fun j _ => ?_
  show Cert.Net.feat2 x0 x1 x2 x3 x4 ((gather_S100000x64_S1600000x1_S1600000x64_1_0_n_n_0_1_164).operandIdx j (val_main_v77 (F := Ideal) x1)) = _
  rw [feat2_apply x0 x1 x2 x3 x4 hL]

/-- The network's output at node p, column q. -/
theorem layer2_apply (hL : val_main_v48 (F := Ideal) x0 x1 x2 x3 = Cert.Net.layer1 x0 x1 x2 x3) (p : Fin 100000) (q : Fin 64) :
    Cert.Net.layer2 x0 x1 x2 x3 x4 x5 (ix2 p q)
      = val_main_v11 (F := Ideal) x1 (ix1 p) * (((0 : EReal) + ∑ j ∈ Finset.univ.filter
              (fun j => (scatter_S100000x64_S1600000x1_S1600000x64_1_0_0_1).resultIdx? j (val_main_v83 (F := Ideal) x1) = some (ix2 p q)),
              val_main_v49 (F := Ideal) x0 x1 x2 x3 x4 ((gather_S100000x64_S1600000x1_S1600000x64_1_0_n_n_0_1_164).operandIdx j (val_main_v77 (F := Ideal) x1))
                * val_main_v11 (F := Ideal) x1 (ix1 (row64 (val_main_v77 (F := Ideal) x1) j)))
            + val_main_v49 (F := Ideal) x0 x1 x2 x3 x4 (ix2 p q) * val_main_v11 (F := Ideal) x1 (ix1 p)) + x5 (ix1 q) := by
  show Cert.Net.degCol x1 (ix2 p (0 : Fin 1)) * (Cert.Net.edgeSum2 x0 x1 x2 x3 x4 (ix2 p q) + Cert.Net.feat2 x0 x1 x2 x3 x4 (ix2 p q))
      + Cert.Net.biasRow2 x5 (ix2 (0 : Fin 1) q) = _
  rw [NetFacts.degCol_apply, edgeSum2_apply x0 x1 x2 x3 x4 hL, feat2_apply x0 x1 x2 x3 x4 hL, NetFacts.biasRow2_apply]

end

end Cert.NetReads

end
-- ==== Proof.EdgeLaw.lean ====
import Mathlib.Data.EReal.Operations
import Mathlib.Data.EReal.Inv
import Idealize.ShloMosaic.PureOps.Ideal

/-!
# The algebra of one graph-convolution layer on the extended reals

With `r` the inverse square root of a node's degree, one program scales the neighbourhood sum
after it has been formed, `r * ((0 + ∑ a_j * D_j) + h * r)`, and the other scales each term before
summing, `(0 + ∑ a_j * (D_j * r)) + h * (r * r)`. On the extended reals multiplication distributes
over addition only for a factor that is nonnegative and not `⊤`; the inverse square root of a
positive degree is such a factor.
-/

namespace Cert.EdgeLaw

open Idealize.ShloMosaic

noncomputable section

/-- The single-precision word of `1.0` denotes the extended real `1`. -/
theorem ofBits_one : Ideal.ofBits .f32 0x3F800000#32 = 1 := by
  simp [Ideal.ofBits, Ideal.ieee]
  rw [← EReal.coe_mul, ← EReal.coe_one, EReal.coe_eq_coe_iff]
  norm_num

/-- A nonnegative factor other than `⊤` distributes over a finite sum. -/
theorem mul_sum {ι : Type*} (s : Finset ι) (f : ι → EReal) {x : EReal} (hx : 0 ≤ x) (hx' : x ≠ ⊤) :
    x * ∑ j ∈ s, f j = ∑ j ∈ s, x * f j := by
  classical
  induction s using Finset.induction_on with
  | empty => simp
  | insert a s ha ih =>
    rw [Finset.sum_insert ha, Finset.sum_insert ha, EReal.left_distrib_of_nonneg_of_ne_top hx hx', ih]

/-- The inverse square root of a positive extended real is nonnegative and is not `⊤`
    (it is `0` at `⊤`, and the real `(√x)⁻¹` at a positive real). -/
theorem rsqrt_nonneg_ne_top {x : EReal} (hx : 0 < x) : 0 ≤ Ideal.rsqrt x ∧ Ideal.rsqrt x ≠ ⊤ := by
  induction x using EReal.rec with
  | bot => exact absurd hx (by simp)
  | top => simp
  | coe r =>
    have hr : 0 < r := by exact_mod_cast hx
    rw [Ideal.rsqrt_coe, if_neg (not_lt.mpr hr.le), if_neg hr.ne']
    refine ⟨?_, EReal.coe_ne_top _⟩
    exact_mod_cast inv_nonneg.mpr (Real.sqrt_nonneg r)

/-- One plus a sum of ones, each one positive, is positive: a degree with its self loop. -/
theorem degree_pos {ι : Type*} (s : Finset ι) {one : EReal} (h1 : 0 < one) :
    0 < ((0 : EReal) + ∑ _j ∈ s, one) + one := by
  have hs : (0 : EReal) ≤ ∑ _j ∈ s, one := Finset.sum_nonneg fun _ _ => h1.le
  rw [zero_add]
  exact lt_of_lt_of_le h1 (le_add_of_nonneg_left hs)

/-- Scaling a layer's neighbourhood sum by `r` afterwards is scaling each of its terms by `r`
    beforehand, for `r` nonnegative and not `⊤`. -/
theorem layer_law {ι : Type*} (s : Finset ι) (a D : ι → EReal) (h r : EReal) (hr : 0 ≤ r) (hr' : r ≠ ⊤) :
    r * (((0 : EReal) + ∑ j ∈ s, a j * D j) + h * r)
      = ((0 : EReal) + ∑ j ∈ s, a j * (D j * r)) + h * (r * r) := by
  rw [zero_add, zero_add, EReal.left_distrib_of_nonneg_of_ne_top hr hr', mul_sum s _ hr hr']
  congr 1
  · exact Finset.sum_congr rfl fun j _ => by rw [mul_left_comm, mul_comm r (D j)]
  · exact mul_left_comm r h r

end

end Cert.EdgeLaw
-- ==== Proof.RefReads.lean ====
import proofs.«182146_j24318104830702_2_alg».proof.Proof.Gen.ReferenceIdeal.Read
import proofs.«182146_j24318104830702_2_alg».proof.Proof.EdgeLaw
import proofs.«182146_j24318104830702_2_alg».proof.Proof.EdgeIndex

/-!
# The reference's layers are the network's layers

One layer of the network scales a node's neighbourhood sum by the node's degree factor after summing; the reference
scales each edge's term by both end nodes' degree factors before summing. The two agree: the source factor of an edge
is the same in both (both read the same clamped source index), the destination factor of an edge that lands at node
`v` is `v`'s own (an edge lands only where its destination index, read signed, names a node, and there the
wrap-around and the clamp leave the index alone), and a degree factor, the inverse square root of a positive degree,
is nonnegative and finite, so it distributes over the sum.
-/

set_option maxRecDepth 16384

noncomputable section

namespace Cert.Bridge

open Idealize.ShloMosaic Idealize.ShloMosaic.TcCoe Idealize.ShloMosaic.ValueIdx Idealize.SL.Sem
open Cert.ReferenceIdeal Cert.ReferenceIdeal.Read Cert.EdgeIndex

local notation "g1" => gather_S100000_S1600000x1_S1600000_n_0_n_n_0_1_1
local notation "g128" => gather_S100000x128_S1600000x1_S1600000x128_1_0_n_n_0_1_1128
local notation "sc128" => scatter_S100000x128_S1600000x1_S1600000x128_1_0_0_1
local notation "sc1" => scatter_S100000_S1600000x1_S1600000_n_0_0_1
local notation "g64" => gather_S100000x64_S1600000x1_S1600000x64_1_0_n_n_0_1_164
local notation "sc64" => scatter_S100000x64_S1600000x1_S1600000x64_1_0_0_1

/-! ## Generalities -/

/-- The accumulating scatter read at an index: the operand there plus the updates that land there. -/
theorem scatterAdd_apply {s si u : Shape} {w : Nat} (d : ScatterDims s si u) (x : s.Idx → EReal) (idx : IVec si w)
    (upd : u.Idx → EReal) (i : s.Idx) :
    Host.scatterAdd (F := Ideal) (φ := .f32) d x idx upd i
      = x i + ∑ j ∈ Finset.univ.filter (fun j => d.resultIdx? j idx = some i), upd j := rfl

section
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))

/-! ## The degree factor -/

/-- A node's degree factor is nonnegative and finite: the inverse square root of one plus a count. -/
theorem dinv_good (v : S100000.Idx) :
    0 ≤ val_main_v11 (F := Ideal) x1 v ∧ val_main_v11 (F := Ideal) x1 v ≠ ⊤ := by
  have h9 : val_main_v9 (F := Ideal) v = 1 := by rw [val_main_v9_apply]; exact EdgeLaw.ofBits_one
  have h6 : val_main_v6 (F := Ideal) v = 0 := by rw [val_main_v6_apply]; exact Ideal.ofBits_zero_f32
  have h5 : ∀ j, val_main_v5 (F := Ideal) j = 1 := fun j => by rw [val_main_v5_apply]; exact EdgeLaw.ofBits_one
  rw [val_main_v11_apply, Ideal.hostUnary_rsqrt_def, val_main_v10_apply, Ideal.addf_def, h9]
  unfold val_main_v8
  rw [scatterAdd_apply, h6]
  simp only [h5]
  exact EdgeLaw.rsqrt_nonneg_ne_top (EdgeLaw.degree_pos _ zero_lt_one)

/-! ## The edges' two ends -/

/-- The zero block the edge sums start from. -/
theorem zero128 (i : S100000x128.Idx) : val_main_v37 (F := Ideal) i = 0 := by
  rw [val_main_v37_apply]; exact Ideal.ofBits_zero_f32

/-- The reference's two source-index arrays are one array. -/
theorem src_same : val_main_v17 (F := Ideal) x1 = val_main_v32 (F := Ideal) x1 := rfl

/-- Where an edge's destination index is nonnegative, the wrapped destination index is the raw one. -/
theorem dst_wrap (e : Fin 1600000) (h : 0 ≤ (val_main_v38 (F := Ideal) x1 (edgeAt e)).toInt) :
    val_main_v24 (F := Ideal) x1 (edgeAt e) = val_main_v38 (F := Ideal) x1 (edgeAt e) := by
  have hi : idx_main_v24 (edgeAt e) = idx_main_v38 (edgeAt e) := funext fun a => by
    match a with
    | ⟨0, _⟩ => rfl
  rw [val_main_v38_apply] at h ⊢
  rw [val_main_v24_apply, hi, val_main_v23_apply, val_main_v20_apply, val_main_v22_apply, val_main_v19_apply,
    val_main_v21_apply]
  exact wrap_of_nonneg _ h

/-- The edge of a row of the gathered features, as an index of the per-edge arrays. -/
abbrev edgeOf (j : S1600000x128.Idx) : S1600000.Idx := idx_main_v34 (idx_main_v35 j)

/-- The source node of the edge of `j`: the row the feature gather reads. -/
abbrev srcRow (j : S1600000x128.Idx) : Fin 100000 :=
  ⟨(((g128).operandIdx j (val_main_v32 (F := Ideal) x1)) 0).val, idx2_lt0 _⟩

/-- The reference's per-edge factor: the degree factors of the edge's two ends. -/
theorem norm_apply (j : S1600000x128.Idx) :
    val_main_v35 (F := Ideal) x1 j
      = val_main_v11 (F := Ideal) x1 ((g1).operandIdx (edgeOf j) (val_main_v17 (F := Ideal) x1))
        * val_main_v11 (F := Ideal) x1 ((g1).operandIdx (edgeOf j) (val_main_v24 (F := Ideal) x1)) := by
  rw [val_main_v35_apply, val_main_v34_apply, val_main_v26_apply, Ideal.mulf_def]
  unfold val_main_v18 val_main_v25 Host.gather
  rfl

/-- The source end's factor is read at the node the feature gather reads. -/
theorem src_node (j : S1600000x128.Idx) :
    (g1).operandIdx (edgeOf j) (val_main_v17 (F := Ideal) x1) = ix1 (srcRow x1 j) := by
  funext a
  match a with
  | ⟨0, _⟩ =>
    refine Fin.ext ?_
    show (((g1).operandIdx (edgeOf j) (val_main_v17 (F := Ideal) x1)) 0).val
      = (((g128).operandIdx j (val_main_v32 (F := Ideal) x1)) 0).val
    rw [gather1_row, gather128_row, src_same]

/-- The destination end's factor, for an edge that lands at node `p`, is read at `p`. -/
theorem dst_node (j : S1600000x128.Idx) (p : Fin 100000) (q : Fin 128)
    (h : (sc128).resultIdx? j (val_main_v38 (F := Ideal) x1) = some (ix2 p q)) :
    (g1).operandIdx (edgeOf j) (val_main_v24 (F := Ideal) x1) = ix1 p := by
  have hl : (val_main_v38 (F := Ideal) x1 (edgeAt ⟨(j 0).val, idx2_lt0 j⟩)).toInt = (p.val : ℤ) :=
    (scatter128_lands (val_main_v38 (F := Ideal) x1) j (ix2 p q) h).1
  have hw := dst_wrap x1 ⟨(j 0).val, idx2_lt0 j⟩ (by rw [hl]; exact Int.natCast_nonneg _)
  funext a
  match a with
  | ⟨0, _⟩ =>
    refine Fin.ext ?_
    show (((g1).operandIdx (edgeOf j) (val_main_v24 (F := Ideal) x1)) 0).val = p.val
    rw [gather1_row]
    show min (val_main_v24 (F := Ideal) x1 (edgeAt ⟨(j 0).val, idx2_lt0 j⟩)).toInt.toNat 99999 = p.val
    rw [hw, hl]
    have := p.isLt
    omega

/-! ## The reference's first layer at a node -/

/-- The reference's edge sum at node `p`, column `q`. -/
theorem ref_sum (p : Fin 100000) (q : Fin 128) :
    val_main_v39 (F := Ideal) x0 x1 x2 (ix2 p q)
      = (0 : EReal) + ∑ j ∈ Finset.univ.filter
          (fun j => (sc128).resultIdx? j (val_main_v38 (F := Ideal) x1) = some (ix2 p q)),
          val_main_v4 (F := Ideal) x0 x2 ((g128).operandIdx j (val_main_v32 (F := Ideal) x1))
            * (val_main_v11 (F := Ideal) x1 (ix1 (srcRow x1 j)) * val_main_v11 (F := Ideal) x1 (ix1 p)) := by
  unfold val_main_v39
  rw [scatterAdd_apply, zero128]
  refine congrArg (fun t : EReal => (0 : EReal) + t) (Finset.sum_congr rfl fun j hj => ?_)
  have hj' := (Finset.mem_filter.mp hj).2
  rw [val_main_v36_apply, Ideal.mulf_def, norm_apply, src_node, dst_node x1 j p q hj']
  unfold val_main_v33 Host.gather
  rfl

/-- The reference's own term at node `p`, column `q`. -/
theorem ref_self (p : Fin 100000) (q : Fin 128) :
    val_main_v43 (F := Ideal) x0 x1 x2 (ix2 p q)
      = val_main_v4 (F := Ideal) x0 x2 (ix2 p q)
        * (val_main_v11 (F := Ideal) x1 (ix1 p) * val_main_v11 (F := Ideal) x1 (ix1 p)) := by
  have hi : idx_main_v41 (idx_main_v42 (ix2 p q)) = ix1 p := funext fun a => by
    match a with
    | ⟨0, _⟩ => rfl
  rw [val_main_v43_apply, Ideal.mulf_def, val_main_v42_apply, val_main_v41_apply, hi, val_main_v40_apply,
    Ideal.mulf_def]

/-- The reference's bias at column `q`. -/
theorem ref_bias (p : Fin 100000) (q : Fin 128) : val_main_v46 (F := Ideal) x3 (ix2 p q) = x3 (ix1 q) := by
  have hi : idx_main_v45 (idx_main_v46 (ix2 p q)) = ix1 q := funext fun a => by
    match a with
    | ⟨0, _⟩ => rfl
  rw [val_main_v46_apply, val_main_v45_apply, hi]

/-- The reference's first layer at node `p`, column `q`. -/
theorem ref_layer1 (p : Fin 100000) (q : Fin 128) :
    val_main_v48 (F := Ideal) x0 x1 x2 x3 (ix2 p q)
      = max ((((0 : EReal) + ∑ j ∈ Finset.univ.filter
            (fun j => (sc128).resultIdx? j (val_main_v38 (F := Ideal) x1) = some (ix2 p q)),
            val_main_v4 (F := Ideal) x0 x2 ((g128).operandIdx j (val_main_v32 (F := Ideal) x1))
              * (val_main_v11 (F := Ideal) x1 (ix1 (srcRow x1 j)) * val_main_v11 (F := Ideal) x1 (ix1 p)))
          + val_main_v4 (F := Ideal) x0 x2 (ix2 p q)
            * (val_main_v11 (F := Ideal) x1 (ix1 p) * val_main_v11 (F := Ideal) x1 (ix1 p)))
          + x3 (ix1 q)) (Ideal.ofBits .f32 0x00000000#32) := by
  rw [val_main_v48_apply, Ideal.maximumf_def, val_main_v47_apply, Ideal.addf_def, val_main_v44_apply, Ideal.addf_def,
    ref_sum, ref_self, ref_bias, val_main_call0_v0_apply, val_main_call0_cst_apply]
  rfl

end

/-! ## The second layer: the same stages again, at 64 columns -/

section
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The zero block the second layer's edge sums start from. -/
theorem zero64 (i : S100000x64.Idx) : val_main_v82 (F := Ideal) i = 0 := by
  rw [val_main_v82_apply]; exact Ideal.ofBits_zero_f32

/-- The reference computes the degree factors a second time: the same array. -/
theorem deg_same : val_main_v56 (F := Ideal) x1 = val_main_v11 (F := Ideal) x1 := rfl

/-- The second layer's two source-index arrays are one array. -/
theorem src_same2 : val_main_v62 (F := Ideal) x1 = val_main_v77 (F := Ideal) x1 := rfl

/-- Where an edge's destination index is nonnegative, the wrapped destination index is the raw one. -/
theorem dst_wrap2 (e : Fin 1600000) (h : 0 ≤ (val_main_v83 (F := Ideal) x1 (edgeAt e)).toInt) :
    val_main_v69 (F := Ideal) x1 (edgeAt e) = val_main_v83 (F := Ideal) x1 (edgeAt e) := by
  have hi : idx_main_v69 (edgeAt e) = idx_main_v83 (edgeAt e) := funext fun a => by
    match a with
    | ⟨0, _⟩ => rfl
  rw [val_main_v83_apply] at h ⊢
  rw [val_main_v69_apply, hi, val_main_v68_apply, val_main_v65_apply, val_main_v67_apply, val_main_v64_apply,
    val_main_v66_apply]
  exact wrap_of_nonneg _ h

/-- The edge of a row of the second layer's gathered features, as an index of the per-edge arrays. -/
abbrev edgeOf64 (j : S1600000x64.Idx) : S1600000.Idx := idx_main_v79 (idx_main_v80 j)

/-- The source node of the edge of `j`: the row the second layer's feature gather reads. -/
abbrev srcRow64 (j : S1600000x64.Idx) : Fin 100000 :=
  ⟨(((g64).operandIdx j (val_main_v77 (F := Ideal) x1)) 0).val, idx2_lt0 _⟩

/-- The reference's per-edge factor: the degree factors of the edge's two ends. -/
theorem norm_apply2 (j : S1600000x64.Idx) :
    val_main_v80 (F := Ideal) x1 j
      = val_main_v11 (F := Ideal) x1 ((g1).operandIdx (edgeOf64 j) (val_main_v62 (F := Ideal) x1))
        * val_main_v11 (F := Ideal) x1 ((g1).operandIdx (edgeOf64 j) (val_main_v69 (F := Ideal) x1)) := by
  rw [val_main_v80_apply, val_main_v79_apply, val_main_v71_apply, Ideal.mulf_def]
  unfold val_main_v63 val_main_v70 Host.gather
  rw [deg_same]

/-- The source end's factor is read at the node the feature gather reads. -/
theorem src_node2 (j : S1600000x64.Idx) :
    (g1).operandIdx (edgeOf64 j) (val_main_v62 (F := Ideal) x1) = ix1 (srcRow64 x1 j) := by
  funext a
  match a with
  | ⟨0, _⟩ =>
    refine Fin.ext ?_
    show (((g1).operandIdx (edgeOf64 j) (val_main_v62 (F := Ideal) x1)) 0).val
      = (((g64).operandIdx j (val_main_v77 (F := Ideal) x1)) 0).val
    rw [gather1_row, gather64_row, src_same2]

/-- The destination end's factor, for an edge that lands at node `p`, is read at `p`. -/
theorem dst_node2 (j : S1600000x64.Idx) (p : Fin 100000) (q : Fin 64)
    (h : (sc64).resultIdx? j (val_main_v83 (F := Ideal) x1) = some (ix2 p q)) :
    (g1).operandIdx (edgeOf64 j) (val_main_v69 (F := Ideal) x1) = ix1 p := by
  have hl : (val_main_v83 (F := Ideal) x1 (edgeAt ⟨(j 0).val, idx2_lt0 j⟩)).toInt = (p.val : ℤ) :=
    (scatter64_lands (val_main_v83 (F := Ideal) x1) j (ix2 p q) h).1
  have hw := dst_wrap2 x1 ⟨(j 0).val, idx2_lt0 j⟩ (by rw [hl]; exact Int.natCast_nonneg _)
  funext a
  match a with
  | ⟨0, _⟩ =>
    refine Fin.ext ?_
    show (((g1).operandIdx (edgeOf64 j) (val_main_v69 (F := Ideal) x1)) 0).val = p.val
    rw [gather1_row]
    show min (val_main_v69 (F := Ideal) x1 (edgeAt ⟨(j 0).val, idx2_lt0 j⟩)).toInt.toNat 99999 = p.val
    rw [hw, hl]
    have := p.isLt
    omega

/-- The reference's second edge sum at node `p`, column `q`. -/
theorem ref_sum2 (p : Fin 100000) (q : Fin 64) :
    val_main_v84 (F := Ideal) x0 x1 x2 x3 x4 (ix2 p q)
      = (0 : EReal) + ∑ j ∈ Finset.univ.filter
          (fun j => (sc64).resultIdx? j (val_main_v83 (F := Ideal) x1) = some (ix2 p q)),
          val_main_v49 (F := Ideal) x0 x1 x2 x3 x4 ((g64).operandIdx j (val_main_v77 (F := Ideal) x1))
            * (val_main_v11 (F := Ideal) x1 (ix1 (srcRow64 x1 j)) * val_main_v11 (F := Ideal) x1 (ix1 p)) := by
  unfold val_main_v84
  rw [scatterAdd_apply, zero64]
  refine congrArg (fun t : EReal => (0 : EReal) + t) (Finset.sum_congr rfl fun j hj => ?_)
  have hj' := (Finset.mem_filter.mp hj).2
  rw [val_main_v81_apply, Ideal.mulf_def, norm_apply2, src_node2, dst_node2 x1 j p q hj']
  unfold val_main_v78 Host.gather
  rfl

/-- The reference's second own term at node `p`, column `q`. -/
theorem ref_self2 (p : Fin 100000) (q : Fin 64) :
    val_main_v88 (F := Ideal) x0 x1 x2 x3 x4 (ix2 p q)
      = val_main_v49 (F := Ideal) x0 x1 x2 x3 x4 (ix2 p q)
        * (val_main_v11 (F := Ideal) x1 (ix1 p) * val_main_v11 (F := Ideal) x1 (ix1 p)) := by
  have hi : idx_main_v86 (idx_main_v87 (ix2 p q)) = ix1 p := funext fun a => by
    match a with
    | ⟨0, _⟩ => rfl
  rw [val_main_v88_apply, Ideal.mulf_def, val_main_v87_apply, val_main_v86_apply, hi, val_main_v85_apply,
    Ideal.mulf_def, deg_same]

/-- The reference's second bias at column `q`. -/
theorem ref_bias2 (p : Fin 100000) (q : Fin 64) : val_main_v91 (F := Ideal) x5 (ix2 p q) = x5 (ix1 q) := by
  have hi : idx_main_v90 (idx_main_v91 (ix2 p q)) = ix1 q := funext fun a => by
    match a with
    | ⟨0, _⟩ => rfl
  rw [val_main_v91_apply, val_main_v90_apply, hi]

/-- The reference's second layer at node `p`, column `q`. -/
theorem ref_layer2 (p : Fin 100000) (q : Fin 64) :
    val_main_v92 (F := Ideal) x0 x1 x2 x3 x4 x5 (ix2 p q)
      = (((0 : EReal) + ∑ j ∈ Finset.univ.filter
            (fun j => (sc64).resultIdx? j (val_main_v83 (F := Ideal) x1) = some (ix2 p q)),
            val_main_v49 (F := Ideal) x0 x1 x2 x3 x4 ((g64).operandIdx j (val_main_v77 (F := Ideal) x1))
              * (val_main_v11 (F := Ideal) x1 (ix1 (srcRow64 x1 j)) * val_main_v11 (F := Ideal) x1 (ix1 p)))
          + val_main_v49 (F := Ideal) x0 x1 x2 x3 x4 (ix2 p q)
            * (val_main_v11 (F := Ideal) x1 (ix1 p) * val_main_v11 (F := Ideal) x1 (ix1 p)))
        + x5 (ix1 q) := by
  rw [val_main_v92_apply, Ideal.addf_def, val_main_v89_apply, Ideal.addf_def, ref_sum2, ref_self2, ref_bias2]

end

end Cert.Bridge

end
-- ==== Proof.Bridge.lean ====
/-
  The reference's layers are the network's layers.

  At node p, column q, with r the degree factor of p, h the layer's transformed features and, for each entry j of the
  gathered array that lands at (p, q), a j the transformed features at the row the gather reads and D j that row's degree
  factor, the network's layer is
        r · ((0 + ∑ j, a j · D j) + h · r) + bias
  and the reference's is
        ((0 + ∑ j, a j · (D j · r)) + h · (r · r)) + bias.
  The factor r is nonnegative and finite, so it distributes over the sum and the two agree; the cut-off at zero after
  the first layer is applied to equal numbers. The second layer's transformed features are computed from the first
  layer's output, equal on the two sides by the first comparison.
-/
import proofs.«182146_j24318104830702_2_alg».proof.Proof.NetReads
import proofs.«182146_j24318104830702_2_alg».proof.Proof.RefReads
import proofs.«182146_j24318104830702_2_alg».proof.Proof.EdgeLaw

set_option maxRecDepth 16384

noncomputable section

namespace Cert.Bridge

open Idealize.ShloMosaic Idealize.ShloMosaic.TcCoe Idealize.ShloMosaic.ValueIdx Idealize.SL.Sem
open Cert.ReferenceIdeal Cert.ReferenceIdeal.Read Cert.EdgeIndex

section
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The reference's first layer is the network's first layer. -/
theorem layer1_eq : val_main_v48 (F := Ideal) x0 x1 x2 x3 = Cert.Net.layer1 x0 x1 x2 x3 := by
  funext i
  obtain ⟨p, q, rfl⟩ : ∃ (p : Fin 100000) (q : Fin 128), i = ix2 p q := ⟨i 0, i 1, eq_ix2 i⟩
  rw [ref_layer1, NetReads.layer1_apply]
  refine congrArg (fun t : EReal => max (t + x3 (ix1 q)) (Ideal.ofBits .f32 0x00000000#32)) ?_
  exact (EdgeLaw.layer_law _
    (fun j => val_main_v4 (F := Ideal) x0 x2 ((gather_S100000x128_S1600000x1_S1600000x128_1_0_n_n_0_1_1128).operandIdx j (val_main_v32 (F := Ideal) x1)))
    (fun j => val_main_v11 (F := Ideal) x1 (ix1 (NetReads.row128 (val_main_v32 (F := Ideal) x1) j)))
    (val_main_v4 (F := Ideal) x0 x2 (ix2 p q)) (val_main_v11 (F := Ideal) x1 (ix1 p))
    (dinv_good x1 (ix1 p)).1 (dinv_good x1 (ix1 p)).2).symm

/-- The reference's result is the network's second layer. -/
theorem layer2_eq : val_main_v92 (F := Ideal) x0 x1 x2 x3 x4 x5 = Cert.Net.layer2 x0 x1 x2 x3 x4 x5 := by
  funext i
  obtain ⟨p, q, rfl⟩ : ∃ (p : Fin 100000) (q : Fin 64), i = ix2 p q := ⟨i 0, i 1, eq_ix2 i⟩
  rw [ref_layer2, NetReads.layer2_apply x0 x1 x2 x3 x4 x5 (layer1_eq x0 x1 x2 x3)]
  refine congrArg (fun t : EReal => t + x5 (ix1 q)) ?_
  exact (EdgeLaw.layer_law _
    (fun j => val_main_v49 (F := Ideal) x0 x1 x2 x3 x4 ((gather_S100000x64_S1600000x1_S1600000x64_1_0_n_n_0_1_164).operandIdx j (val_main_v77 (F := Ideal) x1)))
    (fun j => val_main_v11 (F := Ideal) x1 (ix1 (NetReads.row64 (val_main_v77 (F := Ideal) x1) j)))
    (val_main_v49 (F := Ideal) x0 x1 x2 x3 x4 (ix2 p q)) (val_main_v11 (F := Ideal) x1 (ix1 p))
    (dinv_good x1 (ix1 p)).1 (dinv_good x1 (ix1 p)).2).symm

end

end Cert.Bridge

end
-- ==== Proof.lean ====
/-
  The certificate of a two-layer graph convolution.

  Per layer, with H = X·W the transformed features, d v = rsqrt (1 + indegree v) and the sum over the edges e landing
  at node v, the kernel computes
        d v · ( ∑ₑ H (src e) · d (src e)  +  H v · d v )  +  b
  — the degree factor of the source folded into the features before they travel along the edges, the factor of the
  destination applied once to the whole sum — and the reference computes
        ∑ₑ H (src e) · (d (src e) · d (dst e))  +  H v · (d v · d v)  +  b.
  On the extended reals the two agree because d v is a nonnegative real number (the degree is at least one), so it
  distributes over the sum, and because an edge lands at v exactly when its destination reads v, where d (dst e) = d v.
  The first layer ends with a cut-off at zero on both sides; the second layer is the same comparison on equal inputs.

  The three frame claims are the generated frames (the reference's is its generated run with the result dropped);
  the idealization rewrote nothing, so it preserves the program trivially; the algebraic claim pairs the kernel's run,
  whose result is followed along the chain of host operations and blocked steps to the network's second layer of the
  arguments, with the reference's generated run, whose result is the same function by the layer comparison.
-/
import proofs.«182146_j24318104830702_2_alg».proof.Defs
import proofs.«182146_j24318104830702_2_alg».proof.Proof.Gen.Kernel
import proofs.«182146_j24318104830702_2_alg».proof.Proof.Gen.Kernel.Skeleton
import proofs.«182146_j24318104830702_2_alg».proof.Proof.Gen.Kernel.Launch
import proofs.«182146_j24318104830702_2_alg».proof.Proof.Gen.Kernel.Points
import proofs.«182146_j24318104830702_2_alg».proof.Proof.Gen.Kernel.Frame
import proofs.«182146_j24318104830702_2_alg».proof.Proof.Gen.KernelIdeal
import proofs.«182146_j24318104830702_2_alg».proof.Proof.Gen.KernelIdeal.Skeleton
import proofs.«182146_j24318104830702_2_alg».proof.Proof.Gen.KernelIdeal.Launch
import proofs.«182146_j24318104830702_2_alg».proof.Proof.Gen.KernelIdeal.Points
import proofs.«182146_j24318104830702_2_alg».proof.Proof.Gen.KernelIdeal.Frame
import proofs.«182146_j24318104830702_2_alg».proof.Proof.Gen.ReferenceIdeal
import proofs.«182146_j24318104830702_2_alg».proof.Proof.Gen.Pre_finite_inputs
import proofs.«182146_j24318104830702_2_alg».proof.Proof.Gen.ReferenceIdeal.Run
import proofs.«182146_j24318104830702_2_alg».proof.Proof.Gen.ReferenceIdeal.Read
import proofs.«182146_j24318104830702_2_alg».proof.Proof.KernelValue
import proofs.«182146_j24318104830702_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel ends at the network's second layer of its arguments, the reference at its own
    composed stages of its arguments, which are the same function; the arguments agree. -/
theorem algebraic : Cert.algebraic_KernelIdeal_ReferenceIdeal := by
  intro m ρ m' ρ' _ hagree
  refine ⟨_, Cert.KernelIdeal.Named.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, Cert.Bridge.layer2_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
